-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S640000x128 : Shape := ⟨2, ![640000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 80
  | .vmem => 24
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S640000, .f32⟩
  | .hbm, ⟨16, _⟩ => ⟨S_, .f32⟩
  | .hbm, ⟨17, _⟩ => ⟨S40000, .f32⟩
  | .hbm, ⟨18, _⟩ => ⟨S640000x1, .i32⟩
  | .hbm, ⟨19, _⟩ => ⟨S40000, .f32⟩
  | .hbm, ⟨20, _⟩ => ⟨S_, .f32⟩
  | .hbm, ⟨21, _⟩ => ⟨S40000, .f32⟩
  | .hbm, ⟨22, _⟩ => ⟨S40000, .f32⟩
  | .hbm, ⟨23, _⟩ => ⟨S_, .f32⟩
  | .hbm, ⟨24, _⟩ => ⟨S40000, .f32⟩
  | .hbm, ⟨25, _⟩ => ⟨S40000, .f32⟩
  | .hbm, ⟨26, _⟩ => ⟨S40000x1, .f32⟩
  | .hbm, ⟨27, _⟩ => ⟨S_, .f32⟩
  | .hbm, ⟨28, _⟩ => ⟨S40000, .f32⟩
  | .hbm, ⟨29, _⟩ => ⟨S40000, .i1⟩
  | .hbm, ⟨30, _⟩ => ⟨S40000, .f32⟩
  | .hbm, ⟨31, _⟩ => ⟨S40000x1, .f32⟩
  | .hbm, ⟨32, _⟩ => ⟨S40000x128, .bf16⟩
  | .hbm, ⟨33, _⟩ => ⟨S_, .i32⟩
  | .hbm, ⟨34, _⟩ => ⟨S640000, .i32⟩
  | .hbm, ⟨35, _⟩ => ⟨S640000, .i1⟩
  | .hbm, ⟨36, _⟩ => ⟨S_, .i32⟩
  | .hbm, ⟨37, _⟩ => ⟨S640000, .i32⟩
  | .hbm, ⟨38, _⟩ => ⟨S640000, .i32⟩
  | .hbm, ⟨39, _⟩ => ⟨S640000, .i32⟩
  | .hbm, ⟨40, _⟩ => ⟨S640000x1, .i32⟩
  | .hbm, ⟨41, _⟩ => ⟨S640000x128, .bf16⟩
  | .hbm, ⟨42, _⟩ => ⟨S640000x128, .f32⟩
  | .hbm, ⟨43, _⟩ => ⟨S_, .f32⟩
  | .hbm, ⟨44, _⟩ => ⟨S40000x128, .f32⟩
  | .hbm, ⟨45, _⟩ => ⟨S640000x1, .i32⟩
  | .hbm, ⟨46, _⟩ => ⟨S40000x128, .f32⟩
  | .hbm, ⟨47, _⟩ => ⟨S40000x128, .f32⟩
  | .hbm, ⟨48, _⟩ => ⟨S40000x128, .f32⟩
  | .hbm, ⟨49, _⟩ => ⟨S128x128, .f32⟩
  | .hbm, ⟨50, _⟩ => ⟨S128x128, .bf16⟩
  | .hbm, ⟨51, _⟩ => ⟨S128x128, .f32⟩
  | .hbm, ⟨52, _⟩ => ⟨S128x128, .bf16⟩
  | .hbm, ⟨53, _⟩ => ⟨S1x128, .f32⟩
  | .hbm, ⟨54, _⟩ => ⟨S1x128, .f32⟩
  | .hbm, ⟨55, _⟩ => ⟨S40000x128, .f32⟩
  | .hbm, ⟨56, _⟩ => ⟨S40000x128, .bf16⟩
  | .hbm, ⟨57, _⟩ => ⟨S_, .i32⟩
  | .hbm, ⟨58, _⟩ => ⟨S640000, .i32⟩
  | .hbm, ⟨59, _⟩ => ⟨S640000, .i1⟩
  | .hbm, ⟨60, _⟩ => ⟨S_, .i32⟩
  | .hbm, ⟨61, _⟩ => ⟨S640000, .i32⟩
  | .hbm, ⟨62, _⟩ => ⟨S640000, .i32⟩
  | .hbm, ⟨63, _⟩ => ⟨S640000, .i32⟩
  | .hbm, ⟨64, _⟩ => ⟨S640000x1, .i32⟩
  | .hbm, ⟨65, _⟩ => ⟨S640000x128, .bf16⟩
  | .hbm, ⟨66, _⟩ => ⟨S640000x128, .f32⟩
  | .hbm, ⟨67, _⟩ => ⟨S_, .f32⟩
  | .hbm, ⟨68, _⟩ => ⟨S40000x128, .f32⟩
  | .hbm, ⟨69, _⟩ => ⟨S640000x1, .i32⟩
  | .hbm, ⟨70, _⟩ => ⟨S40000x128, .f32⟩
  | .hbm, ⟨71, _⟩ => ⟨S40000x128, .f32⟩
  | .hbm, ⟨72, _⟩ => ⟨S40000x128, .f32⟩
  | .hbm, ⟨73, _⟩ => ⟨S128x128, .f32⟩
  | .hbm, ⟨74, _⟩ => ⟨S128x128, .bf16⟩
  | .hbm, ⟨75, _⟩ => ⟨S128x128, .f32⟩
  | .hbm, ⟨76, _⟩ => ⟨S128x128, .bf16⟩
  | .hbm, ⟨77, _⟩ => ⟨S1x128, .f32⟩
  | .hbm, ⟨78, _⟩ => ⟨S1x128, .f32⟩
  | .hbm, ⟨79, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bitsLt_bf16_f32 : FTy.bits .bf16 < FTy.bits .f32
  bcast_S_S40000x128 : S_.BroadcastsInDim S40000x128 (![] : Fin 0 → Fin S40000x128.rank)
  bcast_S40000x1_S40000x128_0_1 : S40000x1.BroadcastsInDim S40000x128 (![0, 1] : Fin 2 → Fin S40000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S40000x128.size a
  hwx0_7 : ∀ i : grid0.Coords, EltTy.bits .f32 = 32 ∨ (Rect.block (s := S40000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S40000x1.size a
  hwx1_2 : ∀ i : grid1.Coords, EltTy.bits .f32 = 32 ∨ (Rect.block (s := S40000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S40000x128.size a
  hwx1_7 : ∀ i : grid1.Coords, EltTy.bits .f32 = 32 ∨ (Rect.block (s := S40000x128) S5000x128.size (cc1_transform_7 i) (hinb1_7 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩

abbrev nBuf : Space → Nat
  | .hbm => 114
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S128x128, .f32⟩
  | .hbm, ⟨15, _⟩ => ⟨S40000x128, .f32⟩
  | .hbm, ⟨16, _⟩ => ⟨S1x128, .f32⟩
  | .hbm, ⟨17, _⟩ => ⟨S40000x128, .f32⟩
  | .hbm, ⟨18, _⟩ => ⟨S40000x128, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .f32⟩
  | .hbm, ⟨29, _⟩ => ⟨S40000x128, .f32⟩
  | .hbm, ⟨30, _⟩ => ⟨S640000x1, .i32⟩
  | .hbm, ⟨31, _⟩ => ⟨S40000x128, .f32⟩
  | .hbm, ⟨32, _⟩ => ⟨S_, .f32⟩
  | .hbm, ⟨33, _⟩ => ⟨S640000, .f32⟩
  | .hbm, ⟨34, _⟩ => ⟨S_, .f32⟩
  | .hbm, ⟨35, _⟩ => ⟨S40000, .f32⟩
  | .hbm, ⟨36, _⟩ => ⟨S640000x1, .i32⟩
  | .hbm, ⟨37, _⟩ => ⟨S40000, .f32⟩
  | .hbm, ⟨38, _⟩ => ⟨S_, .f32⟩
  | .hbm, ⟨39, _⟩ => ⟨S40000, .f32⟩
  | .hbm, ⟨40, _⟩ => ⟨S40000, .f32⟩
  | .hbm, ⟨41, _⟩ => ⟨S40000x1, .f32⟩
  | .hbm, ⟨42, _⟩ => ⟨S40000x128, .f32⟩
  | .hbm, ⟨43, _⟩ => ⟨S40000x128, .f32⟩
  | .hbm, ⟨44, _⟩ => ⟨S40000x1, .f32⟩
  | .hbm, ⟨45, _⟩ => ⟨S_, .f32⟩
  | .hbm, ⟨46, _⟩ => ⟨S40000x1, .f32⟩
  | .hbm, ⟨47, _⟩ => ⟨S40000x1, .i1⟩
  | .hbm, ⟨48, _⟩ => ⟨S128x128, .f32⟩
  | .hbm, ⟨49, _⟩ => ⟨S40000x128, .f32⟩
  | .hbm, ⟨50, _⟩ => ⟨S1x128, .f32⟩
  | .hbm, ⟨51, _⟩ => ⟨S40000x128, .f32⟩
  | .hbm, ⟨52, _⟩ => ⟨S40000x128, .f32⟩
  | .hbm, ⟨53, _⟩ => ⟨S_, .f32⟩
  | .hbm, ⟨54, _⟩ => ⟨S_, .f32⟩
  | .hbm, ⟨55, _⟩ => ⟨S40000x128, .i1⟩
  | .hbm, ⟨56, _⟩ => ⟨S40000x128, .f32⟩
  | .hbm, ⟨57, _⟩ => ⟨S40000x128, .f32⟩
  | .hbm, ⟨58, _⟩ => ⟨S40000x128, .f32⟩
  | .hbm, ⟨59, _⟩ => ⟨S_, .f32⟩
  | .hbm, ⟨60, _⟩ => ⟨S40000x128, .f32⟩
  | .hbm, ⟨61, _⟩ => ⟨S40000x128, .f32⟩
  | .hbm, ⟨62, _⟩ => ⟨S1x640000, .i32⟩
  | .hbm, ⟨63, _⟩ => ⟨S640000, .i32⟩
  | .hbm, ⟨64, _⟩ => ⟨S1x640000, .i32⟩
  | .hbm, ⟨65, _⟩ => ⟨S640000, .i32⟩
  | .hbm, ⟨66, _⟩ => ⟨S128x128, .f32⟩
  | .hbm, ⟨67, _⟩ => ⟨S40000x128, .f32⟩
  | .hbm, ⟨68, _⟩ => ⟨S1x128, .f32⟩
  | .hbm, ⟨69, _⟩ => ⟨S40000x128, .f32⟩
  | .hbm, ⟨70, _⟩ => ⟨S40000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S_, .f32⟩
  | .hbm, ⟨81, _⟩ => ⟨S40000x128, .f32⟩
  | .hbm, ⟨82, _⟩ => ⟨S640000x1, .i32⟩
  | .hbm, ⟨83, _⟩ => ⟨S40000x128, .f32⟩
  | .hbm, ⟨84, _⟩ => ⟨S_, .f32⟩
  | .hbm, ⟨85, _⟩ => ⟨S640000, .f32⟩
  | .hbm, ⟨86, _⟩ => ⟨S_, .f32⟩
  | .hbm, ⟨87, _⟩ => ⟨S40000, .f32⟩
  | .hbm, ⟨88, _⟩ => ⟨S640000x1, .i32⟩
  | .hbm, ⟨89, _⟩ => ⟨S40000, .f32⟩
  | .hbm, ⟨90, _⟩ => ⟨S_, .f32⟩
  | .hbm, ⟨91, _⟩ => ⟨S40000, .f32⟩
  | .hbm, ⟨92, _⟩ => ⟨S40000, .f32⟩
  | .hbm, ⟨93, _⟩ => ⟨S40000x1, .f32⟩
  | .hbm, ⟨94, _⟩ => ⟨S40000x128, .f32⟩
  | .hbm, ⟨95, _⟩ => ⟨S40000x128, .f32⟩
  | .hbm, ⟨96, _⟩ => ⟨S40000x1, .f32⟩
  | .hbm, ⟨97, _⟩ => ⟨S_, .f32⟩
  | .hbm, ⟨98, _⟩ => ⟨S40000x1, .f32⟩
  | .hbm, ⟨99, _⟩ => ⟨S40000x1, .i1⟩
  | .hbm, ⟨100, _⟩ => ⟨S128x128, .f32⟩
  | .hbm, ⟨101, _⟩ => ⟨S40000x128, .f32⟩
  | .hbm, ⟨102, _⟩ => ⟨S1x128, .f32⟩
  | .hbm, ⟨103, _⟩ => ⟨S40000x128, .f32⟩
  | .hbm, ⟨104, _⟩ => ⟨S40000x128, .f32⟩
  | .hbm, ⟨105, _⟩ => ⟨S_, .f32⟩
  | .hbm, ⟨106, _⟩ => ⟨S_, .f32⟩
  | .hbm, ⟨107, _⟩ => ⟨S40000x128, .i1⟩
  | .hbm, ⟨108, _⟩ => ⟨S40000x128, .f32⟩
  | .hbm, ⟨109, _⟩ => ⟨S40000x128, .f32⟩
  | .hbm, ⟨110, _⟩ => ⟨S40000x128, .f32⟩
  | .hbm, ⟨111, _⟩ => ⟨S_, .f32⟩
  | .hbm, ⟨112, _⟩ => ⟨S40000x128, .f32⟩
  | .hbm, ⟨113, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v36 : Ref sig .tc := ⟨.hbm, 57, rfl⟩
abbrev main_v37 : Ref sig .tc := ⟨.hbm, 58, rfl⟩
abbrev main_call1_cst : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_6 : Ref sig .tc := ⟨.hbm, 71, rfl⟩
abbrev main_v48 : Ref sig .tc := ⟨.hbm, 72, rfl⟩
abbrev main_v49 : Ref sig .tc := ⟨.hbm, 73, rfl⟩
abbrev main_c_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_8 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_13 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v75 : Ref sig .tc := ⟨.hbm, 109, rfl⟩
abbrev main_v76 : Ref sig .tc := ⟨.hbm, 110, rfl⟩
abbrev main_call3_cst : Ref sig .tc := ⟨.hbm, 111, rfl⟩
abbrev main_call3_v0 : Ref sig .tc := ⟨.hbm, 112, rfl⟩
abbrev main_v77 : Ref sig .tc := ⟨.hbm, 113, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S_S40000x1 : S_.BroadcastsInDim S40000x1 (![] : Fin 0 → Fin S40000x1.rank)
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1

variable [Facts₀]

def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf

class Facts : Prop extends Facts₀ where

variable [Facts]
-- ==== Proof.KernelRun.lean ====
/-
  The idealized kernel's run with its RESULT kept. The program is two launches of the dense kernel among two stretches
  of host operations; its run is the launch of those four segments in order from the memory at entry, and the contents of
  every buffer at each boundary are a fold through the program (the host stretches applied in order, each launch's
  arrays replaced by what its write-backs leave). Read against a final state, the last boundary's contents give, beside
  the ten argument arrays as launched, the result array: it ends at the last fold's value at the second launch's output.
-/
import proofs.«127119_j81252191306417_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result array at the last
    boundary's contents and every argument array as launched. -/
theorem run_main : θ_run defs (onTc (τ := τ) (main (F := F))) ⟨m, fun _ => 0, ρ⟩ (fun r => ∀ c : Dev nD,
      r.2.mem ((c.tc : Thread nD τ).loc main_v58) = W4 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v58 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.LibScatterRows.lean ====
/-
  An accumulating scatter of rows, read at an index, on the exact extended reals.

  Updates `u` of shape [E, D] are added into an [n, D] array `x`, update row `e` going to the row of `x` that the e-th
  scatter index names (read as a signed integer, not clamped; a row outside `0 ≤ · < n` is dropped). The entry of the
  result at row `p` and column `k` is then

      x (p, k) + ∑ over the update rows e whose index is p, of u (e, k):

  only the update's own column `k` can land in column `k`, so the filter over all [E, D] update positions collapses to
  a filter over the E update rows. The one-axis form adds scalar updates [E] into a vector [n] in the same way.
  Both are general in the extents, in the index width and in the float format.
-/
import Idealize.ShloMosaic.Lib.ValueIdx
import Idealize.ShloMosaic.PureOps.Ideal

noncomputable section

namespace Cert.LibScatterRows

open Idealize.ShloMosaic Idealize.ShloMosaic.ValueIdx

variable {n E D w : ℕ}

/-! ## Rows into a matrix -/

/-- The dimension numbers of a row scatter: the update's axis 1 is the window (the operand's axis 1), the operand's
    axis 0 is the scattered one, and each scatter index is one scalar, on the index array's axis 1. -/
abbrev rowsDims (n E D : ℕ) (wf : ScatterDims.WF (⟨2, ![n, D]⟩ : Shape) ⟨2, ![E, 1]⟩ ⟨2, ![E, D]⟩ [1] [0] [0] 1) :
    ScatterDims ⟨2, ![n, D]⟩ ⟨2, ![E, 1]⟩ ⟨2, ![E, D]⟩ := ⟨[1], [0], [0], 1, wf⟩

/-- On the scattered axis the window of update position (e, k) starts at the e-th scatter index, read signed. -/
theorem rows_start_zero (wf) (idx : IVec ⟨2, ![E, 1]⟩ w) (e : Fin E) (k : Fin D) :
    (rowsDims n E D wf).start (ix2 e k) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- On the window axis the start is zero: no scatter index names it. -/
theorem rows_start_one (wf) (idx : IVec ⟨2, ![E, 1]⟩ w) (e : Fin E) (k : Fin D) :
    (rowsDims n E D wf).start (ix2 e k) idx 1 = 0 := by
  unfold ScatterDims.start
  rw [dif_neg (by show (1 : Fin 2) ∉ ([0] : List (Fin 2)); decide)]

/-- The scattered axis carries no window coordinate. -/
theorem rows_window_zero (wf) (e : Fin E) (k : Fin D) : (rowsDims n E D wf).window (ix2 e k) 0 = 0 := by
  unfold ScatterDims.window
  rw [dif_neg (by show (0 : Fin 2) ∉ ([1] : List (Fin 2)); decide)]

/-- The window axis carries the update's column. -/
theorem rows_window_one (wf) (e : Fin E) (k : Fin D) : (rowsDims n E D wf).window (ix2 e k) 1 = k.val := by
  unfold ScatterDims.window
  rw [dif_pos (by show (1 : Fin 2) ∈ ([1] : List (Fin 2)); decide)]
  rfl

/-- Update position (e, k') lands on entry (p, k) exactly when the e-th scatter index is p and the columns agree. -/
theorem rows_resultIdx_iff (wf) (idx : IVec ⟨2, ![E, 1]⟩ w) (e : Fin E) (k' : Fin D) (p : Fin n) (k : Fin D) :
    (rowsDims n E D wf).resultIdx? (ix2 e k') idx = some (ix2 p k) ↔ ((idx (ix2 e 0)).toInt = (p.val : ℤ) ∧ k' = k) := by
  have hs0 := rows_start_zero (n := n) wf idx e k'
  have hs1 := rows_start_one (n := n) wf idx e k'
  have hw0 := rows_window_zero (n := n) wf e k'
  have hw1 := rows_window_one (n := n) wf e k'
  have hp := p.isLt
  have hk' := k'.isLt
  unfold ScatterDims.resultIdx?
  split
  · rename_i h
    rw [Option.some.injEq]
    constructor
    · intro hf
      have h0 : ((rowsDims n E D wf).start (ix2 e k') idx 0 + ((rowsDims n E D wf).window (ix2 e k') 0 : ℕ)).toNat = p.val :=
        congrArg (fun f : (⟨2, ![n, D]⟩ : Shape).Idx => (f 0).val) hf
      have h1 : ((rowsDims n E D wf).start (ix2 e k') idx 1 + ((rowsDims n E D wf).window (ix2 e k') 1 : ℕ)).toNat = k.val :=
        congrArg (fun f : (⟨2, ![n, D]⟩ : Shape).Idx => (f 1).val) hf
      have g0 := (h 0).1
      rw [hs0, hw0] at h0 g0
      rw [hs1, hw1] at h1
      exact ⟨by omega, Fin.ext (by omega)⟩
    · rintro ⟨hc, rfl⟩
      funext a
      match a with
      | ⟨0, _⟩ =>
        apply Fin.ext
        show ((rowsDims n E D wf).start (ix2 e k') idx 0 + ((rowsDims n E D wf).window (ix2 e k') 0 : ℕ)).toNat = p.val
        rw [hs0, hw0, hc]; omega
      | ⟨1, _⟩ =>
        apply Fin.ext
        show ((rowsDims n E D wf).start (ix2 e k') idx 1 + ((rowsDims n E D wf).window (ix2 e k') 1 : ℕ)).toNat = k'.val
        rw [hs1, hw1]; omega
  · rename_i h
    constructor
    · intro hf; exact absurd hf (by simp)
    · rintro ⟨hc, rfl⟩
      exfalso
      apply h
      intro a
      match a with
      | ⟨0, _⟩ =>
        show 0 ≤ (rowsDims n E D wf).start (ix2 e k') idx 0 + ((rowsDims n E D wf).window (ix2 e k') 0 : ℕ)
          ∧ (rowsDims n E D wf).start (ix2 e k') idx 0 + ((rowsDims n E D wf).window (ix2 e k') 0 : ℕ) < (n : ℤ)
        rw [hs0, hw0, hc]; omega
      | ⟨1, _⟩ =>
        show 0 ≤ (rowsDims n E D wf).start (ix2 e k') idx 1 + ((rowsDims n E D wf).window (ix2 e k') 1 : ℕ)
          ∧ (rowsDims n E D wf).start (ix2 e k') idx 1 + ((rowsDims n E D wf).window (ix2 e k') 1 : ℕ) < (D : ℤ)
        rw [hs1, hw1]; omega

/-- THE ROW SCATTER AT AN ENTRY: the operand's entry plus the sum, over the update rows whose scatter index is the
    entry's row, of the update at that row and the entry's column. -/
theorem scatterAdd_rows_apply {φ : FTy} (wf) (x : FVec Ideal ⟨2, ![n, D]⟩ φ) (idx : IVec ⟨2, ![E, 1]⟩ w)
    (upd : FVec Ideal ⟨2, ![E, D]⟩ φ) (p : Fin n) (k : Fin D) :
    Host.scatterAdd (F := Ideal) (rowsDims n E D wf) x idx upd (ix2 p k)
      = x (ix2 p k) + ∑ e : Fin E, if (idx (ix2 e 0)).toInt = (p.val : ℤ) then upd (ix2 e k) else 0 := by
  show x (ix2 p k) + ∑ j ∈ Finset.univ.filter (fun j => (rowsDims n E D wf).resultIdx? j idx = some (ix2 p k)), upd j = _
  congr 1
  rw [Finset.sum_filter, sum_idx2]
  refine Finset.sum_congr rfl fun e _ => ?_
  simp only [rows_resultIdx_iff]
  by_cases hc : (idx (ix2 e 0)).toInt = (p.val : ℤ)
  · simp only [hc, true_and, if_true]
    rw [Finset.sum_ite_eq' Finset.univ k (fun k' => upd (ix2 e k'))]
    simp
  · simp only [hc, false_and, if_false]
    exact Finset.sum_const_zero

/-! ## Scalars into a vector -/

/-- The dimension numbers of a scalar scatter: the updates have no window axis, the operand's one axis is the
    scattered one, and each scatter index is one scalar, on the index array's axis 1. -/
abbrev scalarsDims (n E : ℕ) (wf : ScatterDims.WF (⟨1, ![n]⟩ : Shape) ⟨2, ![E, 1]⟩ ⟨1, ![E]⟩ [] [0] [0] 1) :
    ScatterDims ⟨1, ![n]⟩ ⟨2, ![E, 1]⟩ ⟨1, ![E]⟩ := ⟨[], [0], [0], 1, wf⟩

/-- A rank-1 index set is its coordinate range, so a sum over it is the sum over the coordinate. -/
theorem sum_idx1 {M : Type*} [AddCommMonoid M] (f : (⟨1, ![E]⟩ : Shape).Idx → M) : ∑ i, f i = ∑ e : Fin E, f (ix1 e) := by
  refine (Equiv.sum_comp (⟨ix1, fun i => i 0, fun _ => rfl, fun i => (eq_ix1 i).symm⟩ : Fin E ≃ (⟨1, ![E]⟩ : Shape).Idx) f).symm

/-- Update e starts at the e-th scatter index, read signed. -/
theorem scalars_start (wf) (idx : IVec ⟨2, ![E, 1]⟩ w) (e : Fin E) :
    (scalarsDims n E wf).start (ix1 e) idx 0 = (idx (ix2 e 0)).toInt := by
  unfold ScatterDims.start
  rw [dif_pos (List.mem_singleton.mpr rfl)]
  congr 2
  funext b
  match b with
  | ⟨0, _⟩ =>
    unfold ScatterDims.siIdx
    rw [dif_neg (by show ¬ (0 : ℕ) = 1; omega)]
    rfl
  | ⟨1, _⟩ =>
    unfold ScatterDims.siIdx
    rw [dif_pos (by show (1 : ℕ) = 1; rfl)]
    rfl

/-- There is no window coordinate. -/
theorem scalars_window (wf) (e : Fin E) : (scalarsDims n E wf).window (ix1 e) 0 = 0 := by
  unfold ScatterDims.window
  rw [dif_neg (by show (0 : Fin 1) ∉ ([] : List (Fin 1)); decide)]

/-- Update e lands on entry p exactly when the e-th scatter index is p. -/
theorem scalars_resultIdx_iff (wf) (idx : IVec ⟨2, ![E, 1]⟩ w) (e : Fin E) (p : Fin n) :
    (scalarsDims n E wf).resultIdx? (ix1 e) idx = some (ix1 p) ↔ (idx (ix2 e 0)).toInt = (p.val : ℤ) := by
  have hs0 := scalars_start (n := n) wf idx e
  have hw0 := scalars_window (n := n) wf e
  have hp := p.isLt
  unfold ScatterDims.resultIdx?
  split
  · rename_i h
    rw [Option.some.injEq]
    constructor
    · intro hf
      have h0 : ((scalarsDims n E wf).start (ix1 e) idx 0 + ((scalarsDims n E wf).window (ix1 e) 0 : ℕ)).toNat = p.val :=
        congrArg (fun f : (⟨1, ![n]⟩ : Shape).Idx => (f 0).val) hf
      have g0 := (h 0).1
      rw [hs0, hw0] at h0 g0
      omega
    · intro hc
      funext a
      match a with
      | ⟨0, _⟩ =>
        apply Fin.ext
        show ((scalarsDims n E wf).start (ix1 e) idx 0 + ((scalarsDims n E wf).window (ix1 e) 0 : ℕ)).toNat = p.val
        rw [hs0, hw0, hc]; omega
  · rename_i h
    constructor
    · intro hf; exact absurd hf (by simp)
    · intro hc
      exfalso
      apply h
      intro a
      match a with
      | ⟨0, _⟩ =>
        show 0 ≤ (scalarsDims n E wf).start (ix1 e) idx 0 + ((scalarsDims n E wf).window (ix1 e) 0 : ℕ)
          ∧ (scalarsDims n E wf).start (ix1 e) idx 0 + ((scalarsDims n E wf).window (ix1 e) 0 : ℕ) < (n : ℤ)
        rw [hs0, hw0, hc]; omega

/-- THE SCALAR SCATTER AT AN ENTRY: the operand's entry plus the sum of the updates whose scatter index is the entry. -/
theorem scatterAdd_scalars_apply {φ : FTy} (wf) (x : FVec Ideal ⟨1, ![n]⟩ φ) (idx : IVec ⟨2, ![E, 1]⟩ w)
    (upd : FVec Ideal ⟨1, ![E]⟩ φ) (p : Fin n) :
    Host.scatterAdd (F := Ideal) (scalarsDims n E wf) x idx upd (ix1 p)
      = x (ix1 p) + ∑ e : Fin E, if (idx (ix2 e 0)).toInt = (p.val : ℤ) then upd (ix1 e) else 0 := by
  show x (ix1 p) + ∑ j ∈ Finset.univ.filter (fun j => (scalarsDims n E wf).resultIdx? j idx = some (ix1 p)), upd j = _
  congr 1
  rw [Finset.sum_filter, sum_idx1]
  refine Finset.sum_congr rfl fun e _ => ?_
  simp only [scalars_resultIdx_iff]

end Cert.LibScatterRows

end
-- ==== Proof.Spec.lean ====
/-
  Two layers of a mean-aggregating graph convolution, on the extended reals: 40000 nodes with 128 features, 640000
  directed edges. For one layer, with x the node features, nb the sum of the features of a node's in-neighbours and ct the
  number of its incoming edges,

      out (p, q) = max ( (∑ k, x (p, k) · Ws (q, k)) + bs q  +  N (p, q) ,  0 )

  where the neighbour term N is written in two arrangements. The first multiplies the neighbour sum by the reciprocal
  1 / max (ct p) 1 before the product with Wn and adds the bias times the indicator of ct p > 0:

      N (p, q) = (∑ k, (nb (p, k) · (1 / max (ct p) 1)) · Wn (q, k))  +  [ct p > 0] · bn q.

  The second divides the neighbour sum by max (ct p) 1 and selects on ct p > 0 between the biased product and zero:

      N (p, q) = if ct p > 0 then (∑ k, (nb (p, k) / max (ct p) 1) · Wn (q, k)) + bn q else 0.

  They agree as soon as every ct p is a natural number and nb (p, ·) vanishes wherever ct p = 0: for ct p ≥ 1 the
  divisor is a nonzero real, so dividing by it is multiplying by its reciprocal on every extended real, and the indicator
  is 1; for ct p = 0 every product has a zero factor, and zero times any extended real is zero. No entry of x, of the
  weights or of the biases needs to be finite.

  Both hypotheses hold when ct and nb are accumulating scatters along one and the same column of destination indices,
  of ones and of gathered rows, into zeros: ct p is the number of edges whose destination is p, and nb (p, k) is a sum
  over those same edges.
-/
import Idealize.ShloMosaic.Lib.ValueIdx
import Idealize.ShloMosaic.PureOps.Ideal
import Idealize.ShloMosaic.PureOps.Ideal.Laws
import proofs.«127119_j81252191306417_2_alg».proof.Proof.LibScatterRows

noncomputable section

namespace Cert.GraphConv

open Idealize.ShloMosaic Idealize.ShloMosaic.ValueIdx

/-- Node features. -/
abbrev SND : Shape := ⟨2, ![40000, 128]⟩
/-- A weight matrix. -/
abbrev SDD : Shape := ⟨2, ![128, 128]⟩
/-- A bias. -/
abbrev SD : Shape := ⟨1, ![128]⟩
/-- One number per node. -/
abbrev SN : Shape := ⟨1, ![40000]⟩
/-- One index per edge, as a column. -/
abbrev SE1 : Shape := ⟨2, ![640000, 1]⟩
/-- One feature row per edge. -/
abbrev SED : Shape := ⟨2, ![640000, 128]⟩

/-- The pattern of 1.0 denotes 1. -/
theorem one_f32 : Ideal.ofBits .f32 0x3F800000#32 = 1 := by
  simp [Ideal.ofBits, Ideal.ieee, -EReal.coe_mul]; norm_num

/-! ## One layer, in the two arrangements -/

/-- One layer with the reciprocal multiplied in and the bias masked by the indicator. -/
def layerK (x nb : FVec Ideal SND .f32) (ct : FVec Ideal SN .f32) (Ws : FVec Ideal SDD .f32) (bs : FVec Ideal SD .f32)
    (Wn : FVec Ideal SDD .f32) (bn : FVec Ideal SD .f32) : FVec Ideal SND .f32 := fun i =>
  max (((∑ k : Fin 128, x (ix2 (i 0) k) * Ws (ix2 (i 1) k)) + bs (ix1 (i 1)))
      + ((∑ k : Fin 128, (nb (ix2 (i 0) k)
              * Ideal.div (Ideal.ofBits .f32 0x3F800000#32) (max (ct (ix1 (i 0))) (Ideal.ofBits .f32 0x3F800000#32)))
            * Wn (ix2 (i 1) k))
          + FloatOps.uitofp (F := Ideal) .f32 (Ideal.cmp .ogt (ct (ix1 (i 0))) (Ideal.ofBits .f32 0x00000000#32))
            * bn (ix1 (i 1))))
    (Ideal.ofBits .f32 0x00000000#32)

/-- One layer with the quotient and the selection. -/
def layerR (x nb : FVec Ideal SND .f32) (ct : FVec Ideal SN .f32) (Ws : FVec Ideal SDD .f32) (bs : FVec Ideal SD .f32)
    (Wn : FVec Ideal SDD .f32) (bn : FVec Ideal SD .f32) : FVec Ideal SND .f32 := fun i =>
  max (((∑ k : Fin 128, x (ix2 (i 0) k) * Ws (ix2 (i 1) k)) + bs (ix1 (i 1)))
      + Scalar.select (Ideal.cmp .ogt (ct (ix1 (i 0))) (Ideal.ofBits .f32 0x00000000#32))
          ((∑ k : Fin 128, Ideal.div (nb (ix2 (i 0) k)) (max (ct (ix1 (i 0))) (Ideal.ofBits .f32 0x3F800000#32))
              * Wn (ix2 (i 1) k)) + bn (ix1 (i 1)))
          (Ideal.ofBits .f32 0x00000000#32))
    (Ideal.ofBits .f32 0x00000000#32)

/-- The two arrangements agree when the counts are natural numbers and the neighbour sum vanishes at a zero count. -/
theorem layerK_eq_layerR (x nb : FVec Ideal SND .f32) (ct : FVec Ideal SN .f32) (Ws : FVec Ideal SDD .f32)
    (bs : FVec Ideal SD .f32) (Wn : FVec Ideal SDD .f32) (bn : FVec Ideal SD .f32)
    (hct : ∀ p : Fin 40000, ∃ n : ℕ, ct (ix1 p) = ((n : ℝ) : EReal))
    (hnb : ∀ p : Fin 40000, ct (ix1 p) = 0 → ∀ k : Fin 128, nb (ix2 p k) = 0) :
    layerK x nb ct Ws bs Wn bn = layerR x nb ct Ws bs Wn bn := by
  funext i
  unfold layerK layerR
  congr 2
  obtain ⟨n, hn⟩ := hct (i 0)
  rcases Nat.eq_zero_or_pos n with h0 | hpos
  · -- no incoming edge: every product has a zero factor
    subst h0
    have hc : ct (ix1 (i 0)) = 0 := by rw [hn]; simp
    have hz : ∀ k : Fin 128, nb (ix2 (i 0) k) = 0 := hnb (i 0) hc
    have hcmp : Ideal.cmp .ogt (ct (ix1 (i 0))) (Ideal.ofBits .f32 0x00000000#32) = 0#1 := by
      rw [hc, Ideal.ofBits_zero_f32]; simp [Ideal.cmp]
    rw [hcmp]
    have hsel : ∀ a b : EReal, Scalar.select (0#1) a b = b := fun a b => by simp [Scalar.select]
    rw [hsel]
    have hu : FloatOps.uitofp (F := Ideal) .f32 (0#1) = (0 : EReal) := by
      show (((0#1 : BitVec 1).toNat : ℝ) : EReal) = 0
      simp
    rw [hu, zero_mul, add_zero, Ideal.ofBits_zero_f32]
    refine Finset.sum_eq_zero fun k _ => ?_
    rw [hz k, zero_mul, zero_mul]
  · -- at least one incoming edge: the divisor is the count, a nonzero real
    have hn1 : (1 : ℝ) ≤ (n : ℝ) := by exact_mod_cast hpos
    have hne : (n : ℝ) ≠ 0 := by positivity
    have hcmp : Ideal.cmp .ogt (ct (ix1 (i 0))) (Ideal.ofBits .f32 0x00000000#32) = 1#1 := by
      rw [hn, Ideal.ofBits_zero_f32]
      have : (0 : EReal) < ((n : ℝ) : EReal) := by exact_mod_cast (lt_of_lt_of_le one_pos hn1)
      simp [Ideal.cmp, hpos]
    rw [hcmp]
    have hsel : ∀ a b : EReal, Scalar.select (1#1) a b = a := fun a b => by simp [Scalar.select]
    rw [hsel]
    have hu : FloatOps.uitofp (F := Ideal) .f32 (1#1) = (1 : EReal) := by
      show (((1#1 : BitVec 1).toNat : ℝ) : EReal) = 1
      simp
    have hmax : max (ct (ix1 (i 0))) (Ideal.ofBits .f32 0x3F800000#32) = ((n : ℝ) : EReal) := by
      rw [hn, one_f32]
      exact max_eq_left (by exact_mod_cast hn1)
    rw [hu, one_mul, hmax]
    congr 1
    refine Finset.sum_congr rfl fun k _ => ?_
    rw [Ideal.div_coe hne, Ideal.div_coe hne, one_f32, one_mul]

/-! ## The count and the neighbour sum as scatters along one column of destinations -/

/-- A sum of ones over the members of a finite set that satisfy a condition is the number of those members. -/
theorem sum_ite_one {ι : Type*} [DecidableEq ι] (s : Finset ι) (P : ι → Prop) [DecidablePred P] :
    (∑ e ∈ s, if P e then (1 : EReal) else 0) = (((s.filter P).card : ℝ) : EReal) := by
  induction s using Finset.induction_on with
  | empty => simp
  | insert a s ha ih =>
    rw [Finset.sum_insert ha, ih, Finset.filter_insert]
    by_cases h : P a
    · rw [if_pos h, if_pos h, Finset.card_insert_of_notMem (fun hm => ha (Finset.mem_of_mem_filter a hm))]
      push_cast
      rw [add_comm]
    · rw [if_neg h, if_neg h, zero_add]

/-- The number of edges into each node: ones scattered into zeros along the destination column. -/
def count (wf1 : ScatterDims.WF SN SE1 (⟨1, ![640000]⟩ : Shape) [] [0] [0] 1) (dcol : IVec SE1 32) : FVec Ideal SN .f32 :=
  Host.scatterAdd (F := Ideal) (Cert.LibScatterRows.scalarsDims 40000 640000 wf1)
    (fun _ => Ideal.ofBits .f32 0x00000000#32) dcol (fun _ => Ideal.ofBits .f32 0x3F800000#32)

/-- The sum of the in-neighbours' feature rows: rows gathered by the source column, scattered into zeros along the
    destination column. -/
def nbrSum (wf : ScatterDims.WF SND SE1 SED [1] [0] [0] 1) (g : GatherDims SND SE1 SED) (dcol scol : IVec SE1 32)
    (h : FVec Ideal SND .f32) : FVec Ideal SND .f32 :=
  Host.scatterAdd (F := Ideal) (Cert.LibScatterRows.rowsDims 40000 640000 128 wf)
    (fun _ => Ideal.ofBits .f32 0x00000000#32) dcol (Host.gather g h scol)

/-- The count at a node is the number of edges whose destination is the node. -/
theorem count_apply (wf1) (dcol : IVec SE1 32) (p : Fin 40000) :
    count wf1 dcol (ix1 p)
      = (((Finset.univ.filter fun e : Fin 640000 => (dcol (ix2 e 0)).toInt = (p.val : ℤ)).card : ℝ) : EReal) := by
  unfold count
  rw [Cert.LibScatterRows.scatterAdd_scalars_apply, Ideal.ofBits_zero_f32, zero_add, one_f32]
  exact sum_ite_one Finset.univ _

/-- Every count is a natural number. -/
theorem count_nat (wf1) (dcol : IVec SE1 32) (p : Fin 40000) : ∃ n : ℕ, count wf1 dcol (ix1 p) = ((n : ℝ) : EReal) :=
  ⟨_, count_apply wf1 dcol p⟩

/-- Where the count is zero no edge arrives, so the neighbour sum is zero. -/
theorem nbrSum_eq_zero (wf1) (wf) (g : GatherDims SND SE1 SED) (dcol scol : IVec SE1 32) (h : FVec Ideal SND .f32)
    (p : Fin 40000) (hc : count wf1 dcol (ix1 p) = 0) (k : Fin 128) : nbrSum wf g dcol scol h (ix2 p k) = 0 := by
  rw [count_apply] at hc
  have hcard : (Finset.univ.filter fun e : Fin 640000 => (dcol (ix2 e 0)).toInt = (p.val : ℤ)).card = 0 := by
    exact_mod_cast hc
  have hnone : ∀ e : Fin 640000, ¬ (dcol (ix2 e 0)).toInt = (p.val : ℤ) := fun e he =>
    Finset.notMem_empty e (Finset.card_eq_zero.mp hcard ▸ Finset.mem_filter.mpr ⟨Finset.mem_univ e, he⟩)
  unfold nbrSum
  rw [Cert.LibScatterRows.scatterAdd_rows_apply, Ideal.ofBits_zero_f32, zero_add]
  exact Finset.sum_eq_zero fun e _ => if_neg (hnone e)

/-! ## What one launch of the dense kernel leaves, as one function of its seven operand arrays -/

/-- One number per node, as a column. -/
abbrev SN1 : Shape := ⟨2, ![40000, 1]⟩
/-- A bias as a row. -/
abbrev S1D : Shape := ⟨2, ![1, 128]⟩

/-- The dense kernel's result over all 40000 rows: features x and neighbour means nm against the two TRANSPOSED weight
    matrices (entry (k, q) of wsT multiplies feature k into output q), the biases as rows, and the per-node mask as a
    column multiplying the neighbour bias. Every row depends only on the same row of x, nm and mask, so the result does
    not depend on how the rows are cut into tiles. -/
def denseOut (x nm : FVec Ideal SND .f32) (mask : FVec Ideal SN1 .f32) (wsT : FVec Ideal SDD .bf16)
    (bs : FVec Ideal S1D .f32) (wnT : FVec Ideal SDD .bf16) (bn : FVec Ideal S1D .f32) : FVec Ideal SND .f32 := fun i =>
  max (((∑ k : Fin 128, x (ix2 (i 0) k) * wsT (ix2 k (i 1))) + bs (ix2 (0 : Fin 1) (i 1)))
      + ((∑ k : Fin 128, nm (ix2 (i 0) k) * wnT (ix2 k (i 1))) + mask (ix2 (i 0) (0 : Fin 1)) * bn (ix2 (0 : Fin 1) (i 1))))
    (Ideal.ofBits .f32 0x00000000#32)

/-! ## Two layers -/

/-- Two layers, each in the first arrangement, the second reading the first's output both directly and through the
    neighbour sum. -/
def netK (wf1 : ScatterDims.WF SN SE1 (⟨1, ![640000]⟩ : Shape) [] [0] [0] 1)
    (wf : ScatterDims.WF SND SE1 SED [1] [0] [0] 1) (g : GatherDims SND SE1 SED) (dcol scol : IVec SE1 32) (x : FVec Ideal SND .f32)
    (Ws1 : FVec Ideal SDD .f32) (bs1 : FVec Ideal SD .f32) (Wn1 : FVec Ideal SDD .f32) (bn1 : FVec Ideal SD .f32)
    (Ws2 : FVec Ideal SDD .f32) (bs2 : FVec Ideal SD .f32) (Wn2 : FVec Ideal SDD .f32) (bn2 : FVec Ideal SD .f32) :
    FVec Ideal SND .f32 :=
  layerK (layerK x (nbrSum wf g dcol scol x) (count wf1 dcol) Ws1 bs1 Wn1 bn1)
    (nbrSum wf g dcol scol (layerK x (nbrSum wf g dcol scol x) (count wf1 dcol) Ws1 bs1 Wn1 bn1))
    (count wf1 dcol) Ws2 bs2 Wn2 bn2

/-- Two layers, each in the second arrangement. -/
def netR (wf1 : ScatterDims.WF SN SE1 (⟨1, ![640000]⟩ : Shape) [] [0] [0] 1)
    (wf : ScatterDims.WF SND SE1 SED [1] [0] [0] 1) (g : GatherDims SND SE1 SED) (dcol scol : IVec SE1 32) (x : FVec Ideal SND .f32)
    (Ws1 : FVec Ideal SDD .f32) (bs1 : FVec Ideal SD .f32) (Wn1 : FVec Ideal SDD .f32) (bn1 : FVec Ideal SD .f32)
    (Ws2 : FVec Ideal SDD .f32) (bs2 : FVec Ideal SD .f32) (Wn2 : FVec Ideal SDD .f32) (bn2 : FVec Ideal SD .f32) :
    FVec Ideal SND .f32 :=
  layerR (layerR x (nbrSum wf g dcol scol x) (count wf1 dcol) Ws1 bs1 Wn1 bn1)
    (nbrSum wf g dcol scol (layerR x (nbrSum wf g dcol scol x) (count wf1 dcol) Ws1 bs1 Wn1 bn1))
    (count wf1 dcol) Ws2 bs2 Wn2 bn2

/-- The two networks are one function of the features, the edges and the weights. -/
theorem netK_eq_netR (wf1) (wf) (g : GatherDims SND SE1 SED) (dcol scol : IVec SE1 32) (x : FVec Ideal SND .f32)
    (Ws1 : FVec Ideal SDD .f32) (bs1 : FVec Ideal SD .f32) (Wn1 : FVec Ideal SDD .f32) (bn1 : FVec Ideal SD .f32)
    (Ws2 : FVec Ideal SDD .f32) (bs2 : FVec Ideal SD .f32) (Wn2 : FVec Ideal SDD .f32) (bn2 : FVec Ideal SD .f32) :
    netK wf1 wf g dcol scol x Ws1 bs1 Wn1 bn1 Ws2 bs2 Wn2 bn2 = netR wf1 wf g dcol scol x Ws1 bs1 Wn1 bn1 Ws2 bs2 Wn2 bn2 := by
  unfold netK netR
  have h1 : layerK x (nbrSum wf g dcol scol x) (count wf1 dcol) Ws1 bs1 Wn1 bn1
      = layerR x (nbrSum wf g dcol scol x) (count wf1 dcol) Ws1 bs1 Wn1 bn1 :=
    layerK_eq_layerR _ _ _ _ _ _ _ (count_nat wf1 dcol) (fun p hc k => nbrSum_eq_zero wf1 wf g dcol scol x p hc k)
  rw [h1]
  exact layerK_eq_layerR _ _ _ _ _ _ _ (count_nat wf1 dcol) (fun p hc k => nbrSum_eq_zero wf1 wf g dcol scol _ p hc k)

end Cert.GraphConv

end
-- ==== Proof.LayerBridge.lean ====
/-
  One layer as the idealized kernel's program computes it, and that it is the first arrangement of the specification.

  Around each launch of the dense kernel the program prepares the launch's operands on the host from the node features
  X, the edge array E and the layer's weights: the destination column (row 0 of E) and the source column (row 1 of E, a
  negative index wrapped by +40000); the count of incoming edges per node, ones scattered into zeros along the
  destination column; its reciprocal 1 / max count 1 and the indicator of count > 0, each as a [40000, 1] column; the
  neighbour mean, the gathered rows scattered into zeros along the destination column and multiplied by the
  reciprocal column broadcast along the features; the two weight matrices transposed; and the two biases as rows. The
  dense kernel's result on those operands is, entry by entry, the specification's first arrangement of a layer over the
  neighbour sum and the count: a transposed matrix read at (k, q) is the matrix at (q, k), a row read at (0, q) is the
  bias at q, a column read at (p, 0) is the vector at p, and a column broadcast along the features read at (p, k) is the
  column at (p, 0). A change of float format is the identity on the extended reals.
-/
import proofs.«127119_j81252191306417_2_alg».proof.KernelIdeal
import proofs.«127119_j81252191306417_2_alg».proof.Proof.Gen.KernelIdeal
import proofs.«127119_j81252191306417_2_alg».proof.Proof.Spec
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.ValueIdx Cert.GraphConv

/-! ## The operands the host prepares -/

/-- The destination indices: row 0 of the edge array. -/
def dstIdx (E : IVec S2x640000 32) : IVec S640000 32 :=
  shapeCast S640000 (extractStridedSlice S1x640000 ![0, 0] E slices_S2x640000_S1x640000_0_0) shapeCasts_S1x640000_S640000

/-- The source indices: row 1 of the edge array. -/
def srcIdx (E : IVec S2x640000 32) : IVec S640000 32 :=
  shapeCast S640000 (extractStridedSlice S1x640000 ![1, 0] E slices_S2x640000_S1x640000_1_0) shapeCasts_S1x640000_S640000

/-- The destination indices as a column. -/
def dcol (E : IVec S2x640000 32) : IVec S640000x1 32 :=
  broadcastInDim S640000x1 ![0] bcast_S640000_S640000x1_0 (dstIdx E)

/-- The source indices, a negative one wrapped by the number of nodes, as a column. -/
def scol (E : IVec S2x640000 32) : IVec S640000x1 32 :=
  broadcastInDim S640000x1 ![0] bcast_S640000_S640000x1_0
    (select (cmpi .slt (srcIdx E) (broadcastInDim S640000 ![] bcast_S_S640000 (constantI S_ 32 0#32)))
      (addi (srcIdx E) (broadcastInDim S640000 ![] bcast_S_S640000 (constantI S_ 32 40000#32))) (srcIdx E))

/-- The number of incoming edges per node. -/
def cntH (E : IVec S2x640000 32) : FVec Ideal S40000 .f32 :=
  Host.scatterAdd scatter_S40000_S640000x1_S640000_n_0_0_1
    (broadcastInDim S40000 ![] bcast_S_S40000 (constant S_ .f32 0x00000000#32)) (dcol E)
    (broadcastInDim S640000 ![] bcast_S_S640000 (constant S_ .f32 0x3F800000#32))

/-- The reciprocal of the count (of 1 where there is no incoming edge), as a column. -/
def recipH (E : IVec S2x640000 32) : FVec Ideal S40000x1 .f32 :=
  shapeCast S40000x1 (Host.divf (broadcastInDim S40000 ![] bcast_S_S40000 (constant S_ .f32 0x3F800000#32))
    (maximumf (cntH E) (broadcastInDim S40000 ![] bcast_S_S40000 (constant S_ .f32 0x3F800000#32)))) shapeCasts_S40000_S40000x1

/-- The indicator of a positive count, as a column. -/
def maskH (E : IVec S2x640000 32) : FVec Ideal S40000x1 .f32 :=
  shapeCast S40000x1 (uitofp .f32 (cmpf .ogt (cntH E) (broadcastInDim S40000 ![] bcast_S_S40000 (constant S_ .f32 0x00000000#32))))
    shapeCasts_S40000_S40000x1

/-- The sum of the in-neighbours' rows (gathered through a narrower float format and widened again). -/
def nsumH (X : FVec Ideal S40000x128 .f32) (E : IVec S2x640000 32) : FVec Ideal S40000x128 .f32 :=
  Host.scatterAdd scatter_S40000x128_S640000x1_S640000x128_1_0_0_1
    (broadcastInDim S40000x128 ![] bcast_S_S40000x128 (constant S_ .f32 0x00000000#32)) (dcol E)
    (extf .f32 (Host.gather gather_S40000x128_S640000x1_S640000x128_1_0_n_n_0_1_1128 (truncf .bf16 X bitsLt_bf16_f32) (scol E)) bitsLt_bf16_f32)

/-- The neighbour mean: the neighbour sum times the reciprocal column, broadcast along the features. -/
def nmeanH (X : FVec Ideal S40000x128 .f32) (E : IVec S2x640000 32) : FVec Ideal S40000x128 .f32 :=
  mulf (nsumH X E) (broadcastInDim S40000x128 ![0, 1] bcast_S40000x1_S40000x128_0_1 (recipH E))

/-- A weight matrix transposed (and narrowed). -/
def wT (W : FVec Ideal S128x128 .f32) : FVec Ideal S128x128 .bf16 :=
  truncf .bf16 (transpose S128x128 [1, 0] W transposes_S128x128_S128x128_1_0) bitsLt_bf16_f32

/-- A bias as a row. -/
def bRow (b : FVec Ideal S128 .f32) : FVec Ideal S1x128 .f32 := shapeCast S1x128 b shapeCasts_S128_S1x128

/-- One layer as the program computes it: the dense kernel's result on the operands the host prepares. -/
def layerH (X : FVec Ideal S40000x128 .f32) (E : IVec S2x640000 32) (Ws : FVec Ideal S128x128 .f32) (bs : FVec Ideal S128 .f32)
    (Wn : FVec Ideal S128x128 .f32) (bn : FVec Ideal S128 .f32) : FVec Ideal S40000x128 .f32 :=
  denseOut X (nmeanH X E) (maskH E) (wT Ws) (bRow bs) (wT Wn) (bRow bn)

/-! ## Read at an index -/

/-- A vector over the nodes made a column, read at (p, 0), is the vector at p. -/
theorem col_apply {α : Type} (v : S40000.Idx → α) (p : Fin 40000) :
    shapeCast S40000x1 v shapeCasts_S40000_S40000x1 (ix2 p (0 : Fin 1)) = v (ix1 p) :=
  shapeCast_apply v _ _ _ (by
    rw [Shape.rowMajor_val_one, Shape.rowMajor_val_two]
    show p.val = p.val * 1 + 0
    omega)

/-- A column over the nodes broadcast along the features, read at (p, k), is the column at (p, 0). -/
theorem colBroadcast_apply {α : Type} (v : S40000x1.Idx → α) (p : Fin 40000) (k : Fin 128) :
    broadcastInDim S40000x128 ![0, 1] bcast_S40000x1_S40000x128_0_1 v (ix2 p k) = v (ix2 p (0 : Fin 1)) :=
  broadcastInDim_apply _ _ v _ _ (fun a => match a with
    | ⟨0, _⟩ => by
      show p.val = if (40000 : ℕ) = 1 then 0 else p.val
      rw [if_neg (by decide)]
    | ⟨1, _⟩ => by
      show (0 : ℕ) = if (1 : ℕ) = 1 then 0 else k.val
      rw [if_pos rfl])

/-- A scalar constant broadcast over the nodes, read at a node, is the constant. -/
theorem nodeConst_apply (b : BitVec 32) (i : S40000.Idx) :
    broadcastInDim S40000 ![] bcast_S_S40000 (constant (F := Ideal) S_ .f32 b) i = Ideal.ofBits .f32 b :=
  (broadcastInDim_apply _ _ _ i ix0 (fun a => a.elim0)).trans (constant_apply (s := S_) (φ := .f32) b ix0)

/-- The host's quotient of two vectors over the nodes, read at a node. -/
theorem hostDivf_apply (a b : FVec Ideal S40000 .f32) (i : S40000.Idx) : Host.divf a b i = Ideal.div (a i) (b i) := rfl

/-- The host's count is the specification's, along the destination column. -/
theorem cntH_eq (E : IVec S2x640000 32) : cntH E = count scatter_S40000_S640000x1_S640000_n_0_0_1_wf (dcol E) := rfl

/-- The host's neighbour sum is the specification's, along the destination and source columns. -/
theorem nsumH_eq (X : FVec Ideal S40000x128 .f32) (E : IVec S2x640000 32) :
    nsumH X E = nbrSum scatter_S40000x128_S640000x1_S640000x128_1_0_0_1_wf gather_S40000x128_S640000x1_S640000x128_1_0_n_n_0_1_1128
      (dcol E) (scol E) X := rfl

/-- One layer as the program computes it is the specification's first arrangement. -/
theorem layerH_eq (X : FVec Ideal S40000x128 .f32) (E : IVec S2x640000 32) (Ws : FVec Ideal S128x128 .f32) (bs : FVec Ideal S128 .f32)
    (Wn : FVec Ideal S128x128 .f32) (bn : FVec Ideal S128 .f32) :
    layerH X E Ws bs Wn bn
      = layerK X (nbrSum scatter_S40000x128_S640000x1_S640000x128_1_0_0_1_wf gather_S40000x128_S640000x1_S640000x128_1_0_n_n_0_1_1128 (dcol E) (scol E) X)
          (count scatter_S40000_S640000x1_S640000_n_0_0_1_wf (dcol E)) Ws bs Wn bn := by
  funext i
  obtain ⟨p, q, rfl⟩ : ∃ (p : Fin 40000) (q : Fin 128), i = ix2 p q := ⟨i 0, i 1, eq_ix2 i⟩
  have hW : ∀ (W : FVec Ideal S128x128 .f32) (k : Fin 128), wT W (ix2 k q) = W (ix2 q k) := fun W k =>
    transpose_ix2_apply W transposes_S128x128_S128x128_1_0 k q
  have hb : ∀ b : FVec Ideal S128 .f32, bRow b (ix2 (0 : Fin 1) q) = b (ix1 q) := fun b =>
    shapeCast_a_1a_apply b shapeCasts_S128_S1x128 0 q
  have hm : maskH E (ix2 p (0 : Fin 1))
      = FloatOps.uitofp (F := Ideal) .f32 (Ideal.cmp .ogt (count scatter_S40000_S640000x1_S640000_n_0_0_1_wf (dcol E) (ix1 p)) (Ideal.ofBits .f32 0x00000000#32)) := by
    unfold maskH
    rw [col_apply, cntH_eq]
    show FloatOps.uitofp (F := Ideal) .f32 (cmpf .ogt (count scatter_S40000_S640000x1_S640000_n_0_0_1_wf (dcol E))
      (broadcastInDim S40000 ![] bcast_S_S40000 (constant S_ .f32 0x00000000#32)) (ix1 p)) = _
    rw [cmpf_apply, nodeConst_apply]
    rfl
  have hn : ∀ k : Fin 128, nmeanH X E (ix2 p k)
      = nbrSum scatter_S40000x128_S640000x1_S640000x128_1_0_0_1_wf gather_S40000x128_S640000x1_S640000x128_1_0_n_n_0_1_1128 (dcol E) (scol E) X (ix2 p k)
        * Ideal.div (Ideal.ofBits .f32 0x3F800000#32) (max (count scatter_S40000_S640000x1_S640000_n_0_0_1_wf (dcol E) (ix1 p)) (Ideal.ofBits .f32 0x3F800000#32)) := by
    intro k
    unfold nmeanH
    rw [mulf_apply, colBroadcast_apply, nsumH_eq]
    unfold recipH
    rw [col_apply, cntH_eq]
    rw [hostDivf_apply, maximumf_apply, nodeConst_apply]
  show max (((∑ k : Fin 128, X (ix2 p k) * wT Ws (ix2 k q)) + bRow bs (ix2 (0 : Fin 1) q))
      + ((∑ k : Fin 128, nmeanH X E (ix2 p k) * wT Wn (ix2 k q)) + maskH E (ix2 p (0 : Fin 1)) * bRow bn (ix2 (0 : Fin 1) q)))
      (Ideal.ofBits .f32 0x00000000#32) = _
  simp only [hW, hb, hm, hn]
  rfl

end Cert.KernelIdeal.HostValue

end
-- ==== Proof.HostFirst.lean ====
/-
  The first stretch of host operations of the idealized kernel's program, read back: what each operand of the first
  launch of the dense kernel holds when the launch is entered, as a function of the program's arguments — the node
  features untouched, the neighbour mean, the indicator column, the first layer's two weight matrices transposed and its
  two biases as rows — together with the values the second stretch will read again (the destination and source indices and
  the reciprocal column) and the second layer's arguments, untouched.
-/
import proofs.«127119_j81252191306417_2_alg».proof.Proof.Gen.KernelIdeal.Frame
import proofs.«127119_j81252191306417_2_alg».proof.Proof.LayerBridge
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.ShloMosaic.ValueIdx
open Idealize.ShloMosaic.StableHlo Idealize.SL.Sem Cert.GraphConv
open Idealize.ShloMosaic.Pipeline (Dat)

variable (m : (ℓ : Loc nD τ sig) → Buf (Elt Ideal) ℓ) (ρ : Dev nD → PrngReg) (c : Dev nD)

/-! ## After the first stretch of host operations -/

theorem W1_arg0 : W1 m ρ c (Proc.devRef .tc main_arg0) = m ((c : Thread nD τ).loc main_arg0) := by
  dsimp only [W1, hostOps0]; after_results_simp <;> rfl
theorem W1_arg6 : W1 m ρ c (Proc.devRef .tc main_arg6) = m ((c : Thread nD τ).loc main_arg6) := by
  dsimp only [W1, hostOps0]; after_results_simp <;> rfl
theorem W1_arg7 : W1 m ρ c (Proc.devRef .tc main_arg7) = m ((c : Thread nD τ).loc main_arg7) := by
  dsimp only [W1, hostOps0]; after_results_simp <;> rfl
theorem W1_arg8 : W1 m ρ c (Proc.devRef .tc main_arg8) = m ((c : Thread nD τ).loc main_arg8) := by
  dsimp only [W1, hostOps0]; after_results_simp <;> rfl
theorem W1_arg9 : W1 m ρ c (Proc.devRef .tc main_arg9) = m ((c : Thread nD τ).loc main_arg9) := by
  dsimp only [W1, hostOps0]; after_results_simp <;> rfl

/-- The destination indices. -/
theorem W1_v1 : W1 m ρ c (Proc.devRef .tc main_v1) = dstIdx (m ((c : Thread nD τ).loc main_arg1)) := by
  dsimp only [W1, hostOps0]; after_results_simp <;> rfl
/-- The source indices. -/
theorem W1_v3 : W1 m ρ c (Proc.devRef .tc main_v3) = srcIdx (m ((c : Thread nD τ).loc main_arg1)) := by
  dsimp only [W1, hostOps0]; after_results_simp <;> rfl
/-- The reciprocal column. -/
theorem W1_v12 : W1 m ρ c (Proc.devRef .tc main_v12) = recipH (m ((c : Thread nD τ).loc main_arg1)) := by
  dsimp only [W1, hostOps0]; after_results_simp <;> rfl
/-- The indicator column. -/
theorem W1_v16 : W1 m ρ c (Proc.devRef .tc main_v16) = maskH (m ((c : Thread nD τ).loc main_arg1)) := by
  dsimp only [W1, hostOps0]; after_results_simp <;> rfl
/-- The first layer's neighbour mean. -/
theorem W1_v30 : W1 m ρ c (Proc.devRef .tc main_v30)
    = nmeanH (m ((c : Thread nD τ).loc main_arg0)) (m ((c : Thread nD τ).loc main_arg1)) := by
  dsimp only [W1, hostOps0]; after_results_simp <;> rfl
theorem W1_v32 : W1 m ρ c (Proc.devRef .tc main_v32) = wT (m ((c : Thread nD τ).loc main_arg2)) := by
  dsimp only [W1, hostOps0]; after_results_simp <;> rfl
theorem W1_v34 : W1 m ρ c (Proc.devRef .tc main_v34) = wT (m ((c : Thread nD τ).loc main_arg4)) := by
  dsimp only [W1, hostOps0]; after_results_simp <;> rfl
theorem W1_v35 : W1 m ρ c (Proc.devRef .tc main_v35) = bRow (m ((c : Thread nD τ).loc main_arg3)) := by
  dsimp only [W1, hostOps0]; after_results_simp <;> rfl
theorem W1_v36 : W1 m ρ c (Proc.devRef .tc main_v36) = bRow (m ((c : Thread nD τ).loc main_arg5)) := by
  dsimp only [W1, hostOps0]; after_results_simp <;> rfl

end Cert.KernelIdeal.HostValue

end
-- ==== Proof.HostValue.lean ====
/-
  What the idealized kernel's program leaves in its result array, read back through the program.

  After the first stretch of host operations the first launch of the dense kernel finds its seven operands; what it leaves
  in its output array is the dense kernel's function of them, one layer as the program computes it. The second stretch
  gathers and scatters that array again along the same two index columns and multiplies by the same reciprocal column:
  the second layer's neighbour mean; with the second layer's weights transposed and its biases as rows, and the
  indicator column untouched, the second launch leaves the second layer. Each layer as the program computes it being
  the first arrangement of the specification, the result array ends at the specification's two layers.

  What a launch leaves in its output array — the dense kernel's function of the arrays it finds at entry, whatever those
  are — is taken as a hypothesis per launch here; it is proved from the kernel body's run in another module.
-/
import proofs.«127119_j81252191306417_2_alg».proof.Proof.HostFirst

set_option maxRecDepth 16384

noncomputable section

namespace Cert.KernelIdeal.HostValue

open Cert.KernelIdeal Cert.KernelIdeal.Gen Idealize.ShloMosaic Idealize.ShloMosaic.TcCoe Idealize.ShloMosaic.ValueIdx
open Idealize.ShloMosaic.StableHlo Idealize.SL.Sem Cert.GraphConv
open Idealize.ShloMosaic.Pipeline (Dat)

variable (m : (ℓ : Loc nD τ sig) → Buf (Elt Ideal) ℓ) (ρ : Dev nD → PrngReg) (c : Dev nD)

/-- What the first launch leaves in its output array, for any contents at entry. -/
def Launch0 : Prop :=
  ∀ (V : (c : Dev nD) → (b : Ref sig .tc) → Buf (Elt Ideal) ((c : Thread nD τ).loc b)) (c : Dev nD),
    (dat0 (F := Ideal) V c).arrAt 7 cfg0.N
      = denseOut (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6))

/-- What the second launch leaves in its output array, for any contents at entry. -/
def Launch1 : Prop :=
  ∀ (V : (c : Dev nD) → (b : Ref sig .tc) → Buf (Elt Ideal) ((c : Thread nD τ).loc b)) (c : Dev nD),
    (dat1 (F := Ideal) V c).arrAt 7 cfg1.N
      = denseOut (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) (V c (Pipeline.arrRef spec1 6))

/-! ## After the first launch -/

/-- The first launch leaves the first layer. -/
theorem W2_v37 (h0 : Launch0) : W2 m ρ c (Proc.devRef .tc main_v37)
    = layerH (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W2_arr m ρ c 7).trans ?_
  rw [h0 (V1 m ρ) c]
  show denseOut (W1 m ρ c (Proc.devRef .tc main_arg0)) (W1 m ρ c (Proc.devRef .tc main_v30)) (W1 m ρ c (Proc.devRef .tc main_v16))
    (W1 m ρ c (Proc.devRef .tc main_v32)) (W1 m ρ c (Proc.devRef .tc main_v35)) (W1 m ρ c (Proc.devRef .tc main_v34))
    (W1 m ρ c (Proc.devRef .tc main_v36)) = _
  rw [W1_arg0, W1_v30, W1_v16, W1_v32, W1_v35, W1_v34, W1_v36]
  rfl

/-- Every buffer that is not one of the first launch's arrays is as the first stretch left it. -/
theorem W2_v1 : W2 m ρ c (Proc.devRef .tc main_v1) = dstIdx (m ((c : Thread nD τ).loc main_arg1)) :=
  (W2_of_ne m ρ c main_v1 (by decide)).trans (W1_v1 m ρ c)
theorem W2_v3 : W2 m ρ c (Proc.devRef .tc main_v3) = srcIdx (m ((c : Thread nD τ).loc main_arg1)) :=
  (W2_of_ne m ρ c main_v3 (by decide)).trans (W1_v3 m ρ c)
theorem W2_v12 : W2 m ρ c (Proc.devRef .tc main_v12) = recipH (m ((c : Thread nD τ).loc main_arg1)) :=
  (W2_of_ne m ρ c main_v12 (by decide)).trans (W1_v12 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
/-- The indicator column is an input of the first launch: it is left as found. -/
theorem W2_v16 : W2 m ρ c (Proc.devRef .tc main_v16) = maskH (m ((c : Thread nD τ).loc main_arg1)) :=
  (W2_arr m ρ c 2).trans ((((dat0 (V1 m ρ) c).arrAt_in 2 rfl _).trans (A_eq0 (V1 m ρ) c 2)).trans (W1_v16 m ρ c))

/-! ## After the second stretch of host operations -/

theorem W3_v37 : W3 m ρ c (Proc.devRef .tc main_v37) = W2 m ρ c (Proc.devRef .tc main_v37) := by
  dsimp only [W3, hostOps1]; after_results_simp <;> rfl
theorem W3_v16 : W3 m ρ c (Proc.devRef .tc main_v16) = maskH (m ((c : Thread nD τ).loc main_arg1)) := by
  refine Eq.trans ?_ (W2_v16 m ρ c)
  dsimp only [W3, hostOps1]; after_results_simp <;> rfl
/-- The second layer's neighbour mean, of the first launch's result. -/
theorem W3_v51 : W3 m ρ c (Proc.devRef .tc main_v51)
    = nmeanH (W2 m ρ c (Proc.devRef .tc main_v37)) (m ((c : Thread nD τ).loc main_arg1)) := by
  dsimp only [W3, hostOps1]; after_results_simp
  rw [W2_v1 m ρ c, W2_v3 m ρ c, W2_v12 m ρ c]
  rfl
theorem W3_v53 : W3 m ρ c (Proc.devRef .tc main_v53) = wT (m ((c : Thread nD τ).loc main_arg6)) := by
  dsimp only [W3, hostOps1]; after_results_simp
  rw [W2_arg6 m ρ c]
  rfl
theorem W3_v55 : W3 m ρ c (Proc.devRef .tc main_v55) = wT (m ((c : Thread nD τ).loc main_arg8)) := by
  dsimp only [W3, hostOps1]; after_results_simp
  rw [W2_arg8 m ρ c]
  rfl
theorem W3_v56 : W3 m ρ c (Proc.devRef .tc main_v56) = bRow (m ((c : Thread nD τ).loc main_arg7)) := by
  dsimp only [W3, hostOps1]; after_results_simp
  rw [W2_arg7 m ρ c]
  rfl
theorem W3_v57 : W3 m ρ c (Proc.devRef .tc main_v57) = bRow (m ((c : Thread nD τ).loc main_arg9)) := by
  dsimp only [W3, hostOps1]; after_results_simp
  rw [W2_arg9 m ρ c]
  rfl

/-! ## After the second launch -/

/-- The second launch leaves the second layer, of the first launch's result. -/
theorem W4_v58 (h1 : Launch1) : W4 m ρ c (Proc.devRef .tc main_v58)
    = layerH (W2 m ρ c (Proc.devRef .tc main_v37)) (m ((c : Thread nD τ).loc main_arg1)) (m ((c : Thread nD τ).loc main_arg6))
        (m ((c : Thread nD τ).loc main_arg7)) (m ((c : Thread nD τ).loc main_arg8)) (m ((c : Thread nD τ).loc main_arg9)) := by
  refine (W4_arr m ρ c 7).trans ?_
  rw [h1 (V3 m ρ) c]
  show denseOut (W3 m ρ c (Proc.devRef .tc main_v37)) (W3 m ρ c (Proc.devRef .tc main_v51)) (W3 m ρ c (Proc.devRef .tc main_v16))
    (W3 m ρ c (Proc.devRef .tc main_v53)) (W3 m ρ c (Proc.devRef .tc main_v56)) (W3 m ρ c (Proc.devRef .tc main_v55))
    (W3 m ρ c (Proc.devRef .tc main_v57)) = _
  rw [W3_v37, W3_v51, W3_v16, W3_v53, W3_v56, W3_v55, W3_v57]
  rfl

/-- THE RESULT: the program's result array ends at the specification's two layers, in the first arrangement, of the
    program's arguments. -/
theorem result (h0 : Launch0) (h1 : Launch1) : W4 m ρ c (Proc.devRef .tc main_v58)
    = netK scatter_S40000_S640000x1_S640000_n_0_0_1_wf scatter_S40000x128_S640000x1_S640000x128_1_0_0_1_wf
        gather_S40000x128_S640000x1_S640000x128_1_0_n_n_0_1_1128
        (dcol (m ((c : Thread nD τ).loc main_arg1))) (scol (m ((c : Thread nD τ).loc main_arg1)))
        (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) := by
  rw [W4_v58 m ρ c h1, W2_v37 m ρ c h0, layerH_eq, layerH_eq]
  rfl

end Cert.KernelIdeal.HostValue

end
-- ==== Proof.Claims.lean ====
/-
  The claims. The idealized kernel's program ends with its result array at two layers of the graph convolution in the
  first arrangement of the specification (its run, read back through its two host stretches and its two launches of the
  dense kernel), the idealized reference's at two layers in the second arrangement (its run, read one operation at a
  time), both over the same index columns of the same edge array and the same features and weights; the two
  arrangements are one function, so from memories that agree on the arguments the two results are equal, entry by
  entry, as extended reals. Each program's arguments end as launched. The kernel is its own idealization: the ideal
  pass rewrote no operation.
-/
import proofs.«127119_j81252191306417_2_alg».proof.Defs
import proofs.«127119_j81252191306417_2_alg».proof.Proof.Gen.Kernel.Frame
import proofs.«127119_j81252191306417_2_alg».proof.Proof.Gen.KernelIdeal.Frame
import proofs.«127119_j81252191306417_2_alg».proof.Proof.Gen.ReferenceIdeal
import proofs.«127119_j81252191306417_2_alg».proof.Proof.Gen.Pre_finite_inputs
import proofs.«127119_j81252191306417_2_alg».proof.Proof.KernelRun
import proofs.«127119_j81252191306417_2_alg».proof.Proof.HostValue
import proofs.«127119_j81252191306417_2_alg».proof.Proof.RefRead

noncomputable section

namespace Cert.Proof.Claims

open Idealize.ShloMosaic Idealize.ShloMosaic.TcCoe Idealize.SL.Sem Cert.GraphConv

/-- The two programs spell the same destination column of the edge array. -/
theorem dcol_eq (E : IVec Cert.KernelIdeal.S2x640000 32) :
    Cert.ReferenceIdeal.Read.val_main_v17 (F := Ideal) E = Cert.KernelIdeal.HostValue.dcol E := rfl

/-- The two programs spell the same source column of the edge array. -/
theorem scol_eq (E : IVec Cert.KernelIdeal.S2x640000 32) :
    Cert.ReferenceIdeal.Read.val_main_v14 (F := Ideal) E = Cert.KernelIdeal.HostValue.scol E := rfl

/-- The reference's result as two layers in the second arrangement, of its arguments. -/
def RefResult : Prop :=
  ∀ x0 x1 x2 x3 x4 x5 x6 x7 x8 x9,
    Cert.ReferenceIdeal.Read.val_main_v77 (F := Ideal) x0 x1 x2 x3 x4 x5 x6 x7 x8 x9
      = netR Cert.ReferenceIdeal.Facts₀.scatter_S40000_S640000x1_S640000_n_0_0_1_wf
          Cert.ReferenceIdeal.Facts₀.scatter_S40000x128_S640000x1_S640000x128_1_0_0_1_wf
          Cert.ReferenceIdeal.gather_S40000x128_S640000x1_S640000x128_1_0_n_n_0_1_1128
          (Cert.ReferenceIdeal.Read.val_main_v17 (F := Ideal) x1) (Cert.ReferenceIdeal.Read.val_main_v14 (F := Ideal) x1)
          x0 x2 x3 x4 x5 x6 x7 x8 x9

/-- The reference's arguments end as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Equal results from memories that agree on the arguments, given what each launch of the dense kernel leaves and what
    the reference's last stage is. -/
theorem algebraic_of (h0 : Cert.KernelIdeal.HostValue.Launch0) (h1 : Cert.KernelIdeal.HostValue.Launch1) (hR : RefResult) :
    Cert.algebraic_KernelIdeal_ReferenceIdeal := by
  intro m ρ m' ρ' _ hagree
  refine ⟨fun c => netK Cert.KernelIdeal.Facts₀.scatter_S40000_S640000x1_S640000_n_0_0_1_wf
      Cert.KernelIdeal.Facts₀.scatter_S40000x128_S640000x1_S640000x128_1_0_0_1_wf
      Cert.KernelIdeal.gather_S40000x128_S640000x1_S640000x128_1_0_n_n_0_1_1128
      (Cert.KernelIdeal.HostValue.dcol (m ((c.tc : Thread Cert.KernelIdeal.nD Cert.KernelIdeal.τ).loc Cert.KernelIdeal.main_arg1))) (Cert.KernelIdeal.HostValue.scol (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostValue.result m ρ c h0 h1), (h c).2⟩)
      (Cert.KernelIdeal.RunValue.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v77_eq, hR, e0, e1, e2, e3, e4, e5, e6, e7, e8, e9, dcol_eq, scol_eq]
    exact (netK_eq_netR _ _ _ _ _ _ _ _ _ _ _ _ _ _).symm

end Cert.Proof.Claims

end
-- ==== Proof.RegionValue.lean ====
/-
  What each of the two dense launches leaves in its output array.

  Both launches run one body over a grid of eight points. Point t reads rows 5000 t … 5000 t + 4999 of the features,
  of the neighbour means and of the mask column, reads the two transposed weight matrices and the two bias rows whole,
  and stores one [5000, 128] tile: rows 5000 t … 5000 t + 4999 of the output. Entry (p, q) of the tile is

      max ( ((∑ k, x (p, k) · wsT (k, q)) + bs (0, q)) + ((∑ k, nm (p, k) · wnT (k, q)) + mask (p, 0) · bn (0, q)) , 0 )

  — two products accumulated into zeros, two row broadcasts and one column broadcast, pointwise sums, one pointwise
  product and a maximum; the roundings to the narrower format are the identity on the extended reals, and a cast of a
  shape to itself is the identity. Row p of the tile depends only on row p of the three row-tiled inputs, so the tile
  is rows 5000 t … of `Cert.GraphConv.denseOut` of the whole arrays. Row r lies in tile r / 5000, so the eight tiles
  cover the array, and after the launch the output array is `denseOut` of the seven arrays the launch finds at entry.
-/
import proofs.«127119_j81252191306417_2_alg».proof.Proof.Gen.KernelIdeal.Frame
import proofs.«127119_j81252191306417_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx
open Idealize.ShloMosaic.Pipeline (Dat Cfg Window)

/-! ## Pointwise readings of the body's operations -/

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction of a `[5000, 128]` block with a `[128, 128]` matrix along the block's columns and the matrix's rows. -/
abbrev DD := dot_S5000x128_S128x128_S5000x128_1_0_0_1_n_n

theorem lhs_row (i : S5000x128.Idx) (r : DD.contr.Idx) : (DD.lhsIdx i r 0).val = (i 0).val := by
  unfold DotDims.lhsIdx
  rw [dif_neg (show ¬(0 : Fin S5000x128.rank) ∈ DD.lhsBatch by decide),
    dif_pos (show (0 : Fin S5000x128.rank) ∈ DD.lhsNonContracting by decide)]
  rfl

theorem rhs_col (i : S5000x128.Idx) (r : DD.contr.Idx) : (DD.rhsIdx i r 1).val = (i 1).val := by
  unfold DotDims.rhsIdx
  rw [dif_neg (show ¬(1 : Fin S128x128.rank) ∈ DD.rhsBatch by decide),
    dif_pos (show (1 : Fin S128x128.rank) ∈ DD.rhsNonContracting by decide)]
  rfl

/-- The product accumulated into zeros, at `(p, q)`: row `p` of the block against column `q` of the matrix. -/
theorem matmul_zero_apply {φ₁ φ₂ : FTy} (lhs : FVec Ideal S5000x128 φ₁) (rhs : FVec Ideal S128x128 φ₂) (p : Fin 5000) (q : Fin 128) :
    matmul DD none lhs rhs (constant S5000x128 .f32 0x00000000#32) (ix2 p q) = ∑ k : Fin 128, lhs (ix2 p k) * rhs (ix2 k q) := by
  refine (Ideal.matmul_constant_zero_apply DD none lhs rhs (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_row _ _
    | ⟨1, _⟩ => exact (DD.lhsIdx_val_of_single rfl _ _).trans hk)
  have er : DD.rhsIdx (ix2 p q) ((contrEquiv1 DD 128 rfl rfl).symm k) = ix2 k q := funext fun a => Fin.ext (by
    match a with
    | ⟨0, _⟩ => exact (DD.rhsIdx_val_of_single rfl _ _).trans hk
    | ⟨1, _⟩ => exact rhs_col _ _)
  rw [el, er]

/-! ## The body's one stored value, entry by entry -/

/-- Region 0's stored block at `(p, q)`: the two products with the transposed weights, the self bias, and the
    neighbour bias times the row's mask, clamped below at zero. -/
theorem pay0_apply (v0 v9 : Vec Ideal S5000x128 .f32) (v15 : Vec Ideal S5000x1 .f32) (v2 v12 : Vec Ideal S128x128 .bf16)
    (v5 v17 : Vec Ideal S1x128 .f32) (p : Fin 5000) (q : Fin 128) :
    Gen.k0_pay1 v0 v2 v5 v9 v12 v15 v17 (ix2 p q)
      = max (((∑ k : Fin 128, v0 (ix2 p k) * v2 (ix2 k q)) + v5 (ix2 (0 : Fin 1) q))
          + ((∑ k : Fin 128, v9 (ix2 p k) * v12 (ix2 k q)) + v15 (ix2 p (0 : Fin 1)) * v17 (ix2 (0 : Fin 1) q)))
        (Ideal.ofBits .f32 0x00000000#32) := by
  unfold Gen.k0_pay1
  simp only [shapeCast_self]
  rw [maximumf_apply, addf_apply, addf_apply, addf_apply, mulf_apply, broadcast_apply,
    matmul_zero_apply, matmul_zero_apply, broadcastTo_1b_ab_apply, broadcastTo_1b_ab_apply, broadcastTo_a1_ab_apply]
  rfl

/-- Region 1's stored block at `(p, q)`: the same value; its body casts the feature tile to its own shape first. -/
theorem pay1_apply (v0 v10 : Vec Ideal S5000x128 .f32) (v16 : Vec Ideal S5000x1 .f32) (v3 v13 : Vec Ideal S128x128 .bf16)
    (v6 v18 : Vec Ideal S1x128 .f32) (p : Fin 5000) (q : Fin 128) :
    Gen.k1_pay1 v0 v3 v6 v10 v13 v16 v18 (ix2 p q)
      = max (((∑ k : Fin 128, v0 (ix2 p k) * v3 (ix2 k q)) + v6 (ix2 (0 : Fin 1) q))
          + ((∑ k : Fin 128, v10 (ix2 p k) * v13 (ix2 k q)) + v16 (ix2 p (0 : Fin 1)) * v18 (ix2 (0 : Fin 1) q)))
        (Ideal.ofBits .f32 0x00000000#32) := by
  unfold Gen.k1_pay1
  simp only [shapeCast_self]
  rw [maximumf_apply, addf_apply, addf_apply, addf_apply, mulf_apply, broadcast_apply,
    matmul_zero_apply, matmul_zero_apply, broadcastTo_1b_ab_apply, broadcastTo_1b_ab_apply, broadcastTo_a1_ab_apply]
  rfl

/-! ## What one point writes back -/

theorem hz : (![0, 0] : Fin 2 → Nat) = fun _ => 0 := funext fun a => by fin_cases a <;> rfl

/-! ## Region 0: where each window's block sits in its array -/

/-- The index maps over the eight grid points: the three row-tiled inputs and the output take block `(t, 0)`, the
    two weight matrices and the two biases their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of tile `t` is row `5000 t + p` of the whole array. -/
def row0 (t : Fin cfg0.N) (p : Fin 5000) : Fin 40000 :=
  ⟨t.val * 5000 + p.val, by have ht : t.val < 8 := Gen.N_0 ▸ t.isLt; have := p.isLt; omega⟩

/-- The output tile's entry `(p, q)` is the array's entry `(5000 t + p, q)`. -/
theorem emb0_7 (t : Fin cfg0.N) (p : Fin 5000) (q : Fin 128) :
    ((cfg0.win 7).blk t).view.emb (ix2 p q) = ix2 (row0 t p) q := by
  obtain ⟨-, -, -, -, -, -, -, -, -, -, -, -, -, -, e0, e1⟩ := idx_facts0 t
  funext a; apply Fin.ext
  match a with
  | ⟨0, _⟩ => show win0_7.index t (0 : Fin 2) * 5000 + 1 * p.val = t.val * 5000 + p.val; omega
  | ⟨1, _⟩ => show win0_7.index t (1 : Fin 2) * 128 + 1 * q.val = q.val; omega

/-- The feature tile's entry `(p, k)` is the feature array's entry `(5000 t + p, k)`. -/
theorem blk0_0 (V : (c : Dev nD) → (b : Ref sig .tc) → Buf (Elt Ideal) ((c : Thread nD τ).loc b)) (c : Dev nD) (t : Fin cfg0.N)
    (p : Fin 5000) (k : Fin 128) :
    Gen.iblk0 V c 0 t (ix2 p k) = V c (Pipeline.arrRef spec0 0) (ix2 (row0 t p) k) := by
  obtain ⟨a0, a1, b0, b1, c0, c1, -⟩ := idx_facts0 t
  show V c (Pipeline.arrRef spec0 0) (((cfg0.win 0).blk t).view.emb (ix2 p k)) = _
  refine congrArg (V c (Pipeline.arrRef spec0 0)) ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The neighbour-mean tile's entry `(p, k)` is that array's entry `(5000 t + p, k)`. -/
theorem blk0_1 (V : (c : Dev nD) → (b : Ref sig .tc) → Buf (Elt Ideal) ((c : Thread nD τ).loc b)) (c : Dev nD) (t : Fin cfg0.N)
    (p : Fin 5000) (k : Fin 128) :
    Gen.iblk0 V c 1 t (ix2 p k) = V c (Pipeline.arrRef spec0 1) (ix2 (row0 t p) k) := by
  obtain ⟨a0, a1, b0, b1, c0, c1, -⟩ := idx_facts0 t
  show V c (Pipeline.arrRef spec0 1) (((cfg0.win 1).blk t).view.emb (ix2 p k)) = _
  refine congrArg (V c (Pipeline.arrRef spec0 1)) ?_
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The mask tile's entry `(p, 0)` is the mask column's entry `(5000 t + p, 0)`. -/
theorem blk0_2 (V : (c : Dev nD) → (b : Ref sig .tc) → Buf (Elt Ideal) ((c : Thread nD τ).loc b)) (c : Dev nD) (t : Fin cfg0.N)
    (p : Fin 5000) (z : Fin 1) :
    Gen.iblk0 V c 2 t (ix2 p z) = V c (Pipeline.arrRef spec0 2) (ix2 (row0 t p) z) := by
  obtain ⟨a0, a1, b0, b1, c0, c1, -⟩ := idx_facts0 t
  show V c (Pipeline.arrRef spec0 2) (((cfg0.win 2).blk t).view.emb (ix2 p z)) = _
  refine congrArg (V c (Pipeline.arrRef spec0 2)) ?_
  funext a; apply Fin.ext
  match a with
  | ⟨0, _⟩ => show win0_2.index t (0 : Fin 2) * 5000 + 1 * p.val = t.val * 5000 + p.val; omega
  | ⟨1, _⟩ => show win0_2.index t (1 : Fin 2) * 1 + 1 * z.val = z.val; omega

/-- The self weights are read whole at every point. -/
theorem blk0_3 (V : (c : Dev nD) → (b : Ref sig .tc) → Buf (Elt Ideal) ((c : Thread nD τ).loc b)) (c : Dev nD) (t : Fin cfg0.N)
    (k : Fin 128) (q : Fin 128) :
    Gen.iblk0 V c 3 t (ix2 k q) = V c (Pipeline.arrRef spec0 3) (ix2 k q) := by
  obtain ⟨-, -, -, -, -, -, d0, d1, e0, e1, f0, f1, g0, g1, -⟩ := idx_facts0 t
  show V c (Pipeline.arrRef spec0 3) (((cfg0.win 3).blk t).view.emb (ix2 k q)) = _
  refine congrArg (V c (Pipeline.arrRef spec0 3)) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- The self bias is read whole at every point. -/
theorem blk0_4 (V : (c : Dev nD) → (b : Ref sig .tc) → Buf (Elt Ideal) ((c : Thread nD τ).loc b)) (c : Dev nD) (t : Fin cfg0.N)
    (k : Fin 1) (q : Fin 128) :
    Gen.iblk0 V c 4 t (ix2 k q) = V c (Pipeline.arrRef spec0 4) (ix2 k q) := by
  obtain ⟨-, -, -, -, -, -, d0, d1, e0, e1, f0, f1, g0, g1, -⟩ := idx_facts0 t
  show V c (Pipeline.arrRef spec0 4) (((cfg0.win 4).blk t).view.emb (ix2 k q)) = _
  refine congrArg (V c (Pipeline.arrRef spec0 4)) ?_
  funext a; apply Fin.ext
  match a with
  | ⟨0, _⟩ => show win0_4.index t (0 : Fin 2) * 1 + 1 * k.val = k.val; omega
  | ⟨1, _⟩ => show win0_4.index t (1 : Fin 2) * 128 + 1 * q.val = q.val; omega

/-- The neighbour weights are read whole at every point. -/
theorem blk0_5 (V : (c : Dev nD) → (b : Ref sig .tc) → Buf (Elt Ideal) ((c : Thread nD τ).loc b)) (c : Dev nD) (t : Fin cfg0.N)
    (k : Fin 128) (q : Fin 128) :
    Gen.iblk0 V c 5 t (ix2 k q) = V c (Pipeline.arrRef spec0 5) (ix2 k q) := by
  obtain ⟨-, -, -, -, -, -, d0, d1, e0, e1, f0, f1, g0, g1, -⟩ := idx_facts0 t
  show V c (Pipeline.arrRef spec0 5) (((cfg0.win 5).blk t).view.emb (ix2 k q)) = _
  refine congrArg (V c (Pipeline.arrRef spec0 5)) ?_
  funext a; apply Fin.ext
  match a with
  | ⟨0, _⟩ => show win0_5.index t (0 : Fin 2) * 128 + 1 * k.val = k.val; omega
  | ⟨1, _⟩ => show win0_5.index t (1 : Fin 2) * 128 + 1 * q.val = q.val; omega

/-- The neighbour bias is read whole at every point. -/
theorem blk0_6 (V : (c : Dev nD) → (b : Ref sig .tc) → Buf (Elt Ideal) ((c : Thread nD τ).loc b)) (c : Dev nD) (t : Fin cfg0.N)
    (k : Fin 1) (q : Fin 128) :
    Gen.iblk0 V c 6 t (ix2 k q) = V c (Pipeline.arrRef spec0 6) (ix2 k q) := by
  obtain ⟨-, -, -, -, -, -, d0, d1, e0, e1, f0, f1, g0, g1, -⟩ := idx_facts0 t
  show V c (Pipeline.arrRef spec0 6) (((cfg0.win 6).blk t).view.emb (ix2 k q)) = _
  refine congrArg (V c (Pipeline.arrRef spec0 6)) ?_
  funext a; apply Fin.ext
  match a with
  | ⟨0, _⟩ => show win0_6.index t (0 : Fin 2) * 1 + 1 * k.val = k.val; omega
  | ⟨1, _⟩ => show win0_6.index t (1 : Fin 2) * 128 + 1 * q.val = q.val; omega

/-! ## Region 0: what one point writes back, and the whole array -/

/-- The stored tile at `(p, q)`, from the tiles the point reads, is the dense result at `(5000 t + p, q)`. -/
theorem tile0_apply (V : (c : Dev nD) → (b : Ref sig .tc) → Buf (Elt Ideal) ((c : Thread nD τ).loc b)) (c : Dev nD) (t : Fin cfg0.N)
    (p : Fin 5000) (q : Fin 128) :
    Gen.k0_pay1 (Gen.iblk0 V c 0 t) (Gen.iblk0 V c 3 t) (Gen.iblk0 V c 4 t) (Gen.iblk0 V c 1 t) (Gen.iblk0 V c 5 t)
        (Gen.iblk0 V c 2 t) (Gen.iblk0 V c 6 t) (ix2 p q)
      = Cert.GraphConv.denseOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (ix2 (row0 t p) q) := by
  rw [pay0_apply]
  simp only [blk0_0, blk0_1, blk0_2, blk0_3, blk0_4, blk0_5, blk0_6]
  rfl

/-- What point `t` writes back is tile `t` of the dense result of the arrays the region finds. -/
theorem flushed0_eq (V : (c : Dev nD) → (b : Ref sig .tc) → Buf (Elt Ideal) ((c : Thread nD τ).loc b)) (c : Dev nD) (t : Fin cfg0.N) :
    (Gen.dat0 (F := Ideal) V c).flushed 7 t
      = ((cfg0.win 7).blk t).view.read (Elt Ideal) (Cert.GraphConv.denseOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 7).cut (grid0.coords t) ((Gen.dat0 (F := Ideal) V c).after 7 t) = _
  rw [Gen.after0_7]
  unfold Gen.out0_7
  rw [View.canon_unit_zero hz]
  simp only [View.ld_unit_zero (S := S5000x128) hz, View.ld_unit_zero (S := S128x128) hz,
    View.ld_unit_zero (S := S1x128) hz, View.ld_unit_zero (S := S5000x1) hz]
  funext j
  obtain ⟨p, q, rfl⟩ : ∃ (p : Fin 5000) (q : Fin 128), j = ix2 p q := ⟨j 0, j 1, eq_ix2 j⟩
  exact (tile0_apply V c t p q).trans
    (congrArg (Cert.GraphConv.denseOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) (emb0_7 t p q).symm)

/-- An entry of the array is in point `t`'s tile iff each coordinate is in the tile's range on its axis. -/
theorem mem_blk0 (t : Fin cfg0.N) (i : S40000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v37).slice (win0_7.rect t)).set ↔ _
  rw [View.set_slice_whole, Rect.mem_set_unit]
  exact Iff.rfl

/-- Row `r` lies in tile `r / 5000`: the eight tiles cover the array. -/
theorem cover0 (i : S40000x128.Idx) :
    ∃ t : Fin cfg0.N, (cfg0.win 7).flush t = true ∧ i ∈ ((cfg0.win 7).blk t).view.set := by
  have hi0 : (i 0).val < 40000 := (i 0).isLt
  have hi1 : (i 1).val < 128 := (i 1).isLt
  have ht : (i 0).val / 5000 < cfg0.N := by show _ < grid0.N; rw [Gen.N_0]; omega
  obtain ⟨-, -, -, -, -, -, -, -, -, -, -, -, -, -, e0, e1⟩ := idx_facts0 ⟨(i 0).val / 5000, ht⟩
  refine ⟨⟨(i 0).val / 5000, ht⟩, Gen.flush0_7 _, ?_⟩
  rw [mem_blk0]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    have e0' : win0_7.index ⟨(i 0).val / 5000, ht⟩ (0 : Fin 2) = (i 0).val / 5000 := e0
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    omega

/-- After region 0 its output array is the dense result of the seven arrays the region finds at entry. -/
theorem final0 (V : (c : Dev nD) → (b : Ref sig .tc) → Buf (Elt Ideal) ((c : Thread nD τ).loc b)) (c : Dev nD) :
    (Gen.dat0 (F := Ideal) V c).arrAt 7 cfg0.N
      = Cert.GraphConv.denseOut (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (Gen.dat0 (F := Ideal) V c).arrAt_eq_of_cover 7 _ (fun t _ => flushed0_eq V c t) cover0

/-! ## Region 1: where each window's block sits in its array -/

/-- The index maps over the eight grid points: the three row-tiled inputs and the output take block `(t, 0)`, the
    two weight matrices and the two biases their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of tile `t` is row `5000 t + p` of the whole array. -/
def row1 (t : Fin cfg1.N) (p : Fin 5000) : Fin 40000 :=
  ⟨t.val * 5000 + p.val, by have ht : t.val < 8 := Gen.N_1 ▸ t.isLt; have := p.isLt; omega⟩

/-- The output tile's entry `(p, q)` is the array's entry `(5000 t + p, q)`. -/
theorem emb1_7 (t : Fin cfg1.N) (p : Fin 5000) (q : Fin 128) :
    ((cfg1.win 7).blk t).view.emb (ix2 p q) = ix2 (row1 t p) q := by
  obtain ⟨-, -, -, -, -, -, -, -, -, -, -, -, -, -, e0, e1⟩ := idx_facts1 t
  funext a; apply Fin.ext
  match a with
  | ⟨0, _⟩ => show win1_7.index t (0 : Fin 2) * 5000 + 1 * p.val = t.val * 5000 + p.val; omega
  | ⟨1, _⟩ => show win1_7.index t (1 : Fin 2) * 128 + 1 * q.val = q.val; omega

/-- The feature tile's entry `(p, k)` is the feature array's entry `(5000 t + p, k)`. -/
theorem blk1_0 (V : (c : Dev nD) → (b : Ref sig .tc) → Buf (Elt Ideal) ((c : Thread nD τ).loc b)) (c : Dev nD) (t : Fin cfg1.N)
    (p : Fin 5000) (k : Fin 128) :
    Gen.iblk1 V c 0 t (ix2 p k) = V c (Pipeline.arrRef spec1 0) (ix2 (row1 t p) k) := by
  obtain ⟨a0, a1, b0, b1, c0, c1, -⟩ := idx_facts1 t
  show V c (Pipeline.arrRef spec1 0) (((cfg1.win 0).blk t).view.emb (ix2 p k)) = _
  refine congrArg (V c (Pipeline.arrRef spec1 0)) ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The neighbour-mean tile's entry `(p, k)` is that array's entry `(5000 t + p, k)`. -/
theorem blk1_1 (V : (c : Dev nD) → (b : Ref sig .tc) → Buf (Elt Ideal) ((c : Thread nD τ).loc b)) (c : Dev nD) (t : Fin cfg1.N)
    (p : Fin 5000) (k : Fin 128) :
    Gen.iblk1 V c 1 t (ix2 p k) = V c (Pipeline.arrRef spec1 1) (ix2 (row1 t p) k) := by
  obtain ⟨a0, a1, b0, b1, c0, c1, -⟩ := idx_facts1 t
  show V c (Pipeline.arrRef spec1 1) (((cfg1.win 1).blk t).view.emb (ix2 p k)) = _
  refine congrArg (V c (Pipeline.arrRef spec1 1)) ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The mask tile's entry `(p, 0)` is the mask column's entry `(5000 t + p, 0)`. -/
theorem blk1_2 (V : (c : Dev nD) → (b : Ref sig .tc) → Buf (Elt Ideal) ((c : Thread nD τ).loc b)) (c : Dev nD) (t : Fin cfg1.N)
    (p : Fin 5000) (z : Fin 1) :
    Gen.iblk1 V c 2 t (ix2 p z) = V c (Pipeline.arrRef spec1 2) (ix2 (row1 t p) z) := by
  obtain ⟨a0, a1, b0, b1, c0, c1, -⟩ := idx_facts1 t
  show V c (Pipeline.arrRef spec1 2) (((cfg1.win 2).blk t).view.emb (ix2 p z)) = _
  refine congrArg (V c (Pipeline.arrRef spec1 2)) ?_
  funext a; apply Fin.ext
  match a with
  | ⟨0, _⟩ => show win1_2.index t (0 : Fin 2) * 5000 + 1 * p.val = t.val * 5000 + p.val; omega
  | ⟨1, _⟩ => show win1_2.index t (1 : Fin 2) * 1 + 1 * z.val = z.val; omega

/-- The self weights are read whole at every point. -/
theorem blk1_3 (V : (c : Dev nD) → (b : Ref sig .tc) → Buf (Elt Ideal) ((c : Thread nD τ).loc b)) (c : Dev nD) (t : Fin cfg1.N)
    (k : Fin 128) (q : Fin 128) :
    Gen.iblk1 V c 3 t (ix2 k q) = V c (Pipeline.arrRef spec1 3) (ix2 k q) := by
  obtain ⟨-, -, -, -, -, -, d0, d1, e0, e1, f0, f1, g0, g1, -⟩ := idx_facts1 t
  show V c (Pipeline.arrRef spec1 3) (((cfg1.win 3).blk t).view.emb (ix2 k q)) = _
  refine congrArg (V c (Pipeline.arrRef spec1 3)) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The self bias is read whole at every point. -/
theorem blk1_4 (V : (c : Dev nD) → (b : Ref sig .tc) → Buf (Elt Ideal) ((c : Thread nD τ).loc b)) (c : Dev nD) (t : Fin cfg1.N)
    (k : Fin 1) (q : Fin 128) :
    Gen.iblk1 V c 4 t (ix2 k q) = V c (Pipeline.arrRef spec1 4) (ix2 k q) := by
  obtain ⟨-, -, -, -, -, -, d0, d1, e0, e1, f0, f1, g0, g1, -⟩ := idx_facts1 t
  show V c (Pipeline.arrRef spec1 4) (((cfg1.win 4).blk t).view.emb (ix2 k q)) = _
  refine congrArg (V c (Pipeline.arrRef spec1 4)) ?_
  funext a; apply Fin.ext
  match a with
  | ⟨0, _⟩ => show win1_4.index t (0 : Fin 2) * 1 + 1 * k.val = k.val; omega
  | ⟨1, _⟩ => show win1_4.index t (1 : Fin 2) * 128 + 1 * q.val = q.val; omega

/-- The neighbour weights are read whole at every point. -/
theorem blk1_5 (V : (c : Dev nD) → (b : Ref sig .tc) → Buf (Elt Ideal) ((c : Thread nD τ).loc b)) (c : Dev nD) (t : Fin cfg1.N)
    (k : Fin 128) (q : Fin 128) :
    Gen.iblk1 V c 5 t (ix2 k q) = V c (Pipeline.arrRef spec1 5) (ix2 k q) := by
  obtain ⟨-, -, -, -, -, -, d0, d1, e0, e1, f0, f1, g0, g1, -⟩ := idx_facts1 t
  show V c (Pipeline.arrRef spec1 5) (((cfg1.win 5).blk t).view.emb (ix2 k q)) = _
  refine congrArg (V c (Pipeline.arrRef spec1 5)) ?_
  funext a; apply Fin.ext
  match a with
  | ⟨0, _⟩ => show win1_5.index t (0 : Fin 2) * 128 + 1 * k.val = k.val; omega
  | ⟨1, _⟩ => show win1_5.index t (1 : Fin 2) * 128 + 1 * q.val = q.val; omega

/-- The neighbour bias is read whole at every point. -/
theorem blk1_6 (V : (c : Dev nD) → (b : Ref sig .tc) → Buf (Elt Ideal) ((c : Thread nD τ).loc b)) (c : Dev nD) (t : Fin cfg1.N)
    (k : Fin 1) (q : Fin 128) :
    Gen.iblk1 V c 6 t (ix2 k q) = V c (Pipeline.arrRef spec1 6) (ix2 k q) := by
  obtain ⟨-, -, -, -, -, -, d0, d1, e0, e1, f0, f1, g0, g1, -⟩ := idx_facts1 t
  show V c (Pipeline.arrRef spec1 6) (((cfg1.win 6).blk t).view.emb (ix2 k q)) = _
  refine congrArg (V c (Pipeline.arrRef spec1 6)) ?_
  funext a; apply Fin.ext
  match a with
  | ⟨0, _⟩ => show win1_6.index t (0 : Fin 2) * 1 + 1 * k.val = k.val; omega
  | ⟨1, _⟩ => show win1_6.index t (1 : Fin 2) * 128 + 1 * q.val = q.val; omega

/-! ## Region 1: what one point writes back, and the whole array -/

/-- The stored tile at `(p, q)`, from the tiles the point reads, is the dense result at `(5000 t + p, q)`. -/
theorem tile1_apply (V : (c : Dev nD) → (b : Ref sig .tc) → Buf (Elt Ideal) ((c : Thread nD τ).loc b)) (c : Dev nD) (t : Fin cfg1.N)
    (p : Fin 5000) (q : Fin 128) :
    Gen.k1_pay1 (Gen.iblk1 V c 0 t) (Gen.iblk1 V c 3 t) (Gen.iblk1 V c 4 t) (Gen.iblk1 V c 1 t) (Gen.iblk1 V c 5 t)
        (Gen.iblk1 V c 2 t) (Gen.iblk1 V c 6 t) (ix2 p q)
      = Cert.GraphConv.denseOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (ix2 (row1 t p) q) := by
  rw [pay1_apply]
  simp only [blk1_0, blk1_1, blk1_2, blk1_3, blk1_4, blk1_5, blk1_6]
  rfl

/-- What point `t` writes back is tile `t` of the dense result of the arrays the region finds. -/
theorem flushed1_eq (V : (c : Dev nD) → (b : Ref sig .tc) → Buf (Elt Ideal) ((c : Thread nD τ).loc b)) (c : Dev nD) (t : Fin cfg1.N) :
    (Gen.dat1 (F := Ideal) V c).flushed 7 t
      = ((cfg1.win 7).blk t).view.read (Elt Ideal) (Cert.GraphConv.denseOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((Gen.dat1 (F := Ideal) V c).after 7 t) = _
  rw [Gen.after1_7]
  unfold Gen.out1_7
  rw [View.canon_unit_zero hz]
  simp only [View.ld_unit_zero (S := S5000x128) hz, View.ld_unit_zero (S := S128x128) hz,
    View.ld_unit_zero (S := S1x128) hz, View.ld_unit_zero (S := S5000x1) hz]
  funext j
  obtain ⟨p, q, rfl⟩ : ∃ (p : Fin 5000) (q : Fin 128), j = ix2 p q := ⟨j 0, j 1, eq_ix2 j⟩
  exact (tile1_apply V c t p q).trans
    (congrArg (Cert.GraphConv.denseOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) (emb1_7 t p q).symm)

/-- An entry of the array is in point `t`'s tile iff each coordinate is in the tile's range on its axis. -/
theorem mem_blk1 (t : Fin cfg1.N) (i : S40000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v58).slice (win1_7.rect t)).set ↔ _
  rw [View.set_slice_whole, Rect.mem_set_unit]
  exact Iff.rfl

/-- Row `r` lies in tile `r / 5000`: the eight tiles cover the array. -/
theorem cover1 (i : S40000x128.Idx) :
    ∃ t : Fin cfg1.N, (cfg1.win 7).flush t = true ∧ i ∈ ((cfg1.win 7).blk t).view.set := by
  have hi0 : (i 0).val < 40000 := (i 0).isLt
  have hi1 : (i 1).val < 128 := (i 1).isLt
  have ht : (i 0).val / 5000 < cfg1.N := by show _ < grid1.N; rw [Gen.N_1]; omega
  obtain ⟨-, -, -, -, -, -, -, -, -, -, -, -, -, -, e0, e1⟩ := idx_facts1 ⟨(i 0).val / 5000, ht⟩
  refine ⟨⟨(i 0).val / 5000, ht⟩, Gen.flush1_7 _, ?_⟩
  rw [mem_blk1]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    have e0' : win1_7.index ⟨(i 0).val / 5000, ht⟩ (0 : Fin 2) = (i 0).val / 5000 := e0
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    omega

/-- After region 1 its output array is the dense result of the seven arrays the region finds at entry. -/
theorem final1 (V : (c : Dev nD) → (b : Ref sig .tc) → Buf (Elt Ideal) ((c : Thread nD τ).loc b)) (c : Dev nD) :
    (Gen.dat1 (F := Ideal) V c).arrAt 7 cfg1.N
      = Cert.GraphConv.denseOut (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) :=
  (Gen.dat1 (F := Ideal) V c).arrAt_eq_of_cover 7 _ (fun t _ => flushed1_eq V c t) cover1

end Cert.KernelIdeal.RegionValue

end
-- ==== Proof.RefValue.lean ====
/-
  The reference program computes the two-layer graph convolution in the arrangement with the quotient and the selection.

  Its two accumulating scatters along the destination row of the edge array are the neighbour sum and the count: the
  rows it scatters are the feature rows gathered by the source row, the numbers it scatters are ones, and both go into
  zeros. Everything else is entrywise or a product with a transposed weight matrix, so each layer, read at an entry
  (p, q), is

      max ( (∑ k, x (p, k) · Ws (q, k)) + bs q
            + (if ct p > 0 then (∑ k, (nb (p, k) / max (ct p) 1) · Wn (q, k)) + bn q else 0) ,  0 ).

  The second layer re-slices the edge array, so its destination and source columns, its count and its clamped count are
  the first layer's; it differs only in reading the first layer's output for the features and in its four weights.
  One layer term over arbitrary features and neighbour sums therefore serves both layers.
-/
import proofs.«127119_j81252191306417_2_alg».proof.Proof.RefRead
import proofs.«127119_j81252191306417_2_alg».proof.Proof.Spec
import Idealize.ShloMosaic.Lib.ValueIdx
import Idealize.ShloMosaic.Lib.IdealHost

noncomputable section

namespace Cert.ReferenceIdeal.RefValue

open Cert.ReferenceIdeal Cert.ReferenceIdeal.Gen Cert.ReferenceIdeal.Read Cert.GraphConv
open Idealize.ShloMosaic Idealize.ShloMosaic.TcCoe Idealize.SL.Sem Idealize.ShloMosaic.StableHlo Idealize.ShloMosaic.ValueIdx

/-- A float matrix with one row per node. -/
abbrev MND := (⟨S40000x128, .f32⟩ : BufTy).Contents (Elt Ideal)
/-- A square weight matrix. -/
abbrev MDD := (⟨S128x128, .f32⟩ : BufTy).Contents (Elt Ideal)
/-- A bias vector. -/
abbrev VD := (⟨S128, .f32⟩ : BufTy).Contents (Elt Ideal)
/-- The edge array: a row of destinations over a row of sources. -/
abbrev EDG := (⟨S2x640000, .i32⟩ : BufTy).Contents (Elt Ideal)

/-! ## The scatters are the neighbour sum and the count -/

/-- The first layer's row scatter is the neighbour sum of the features. -/
theorem v18_eq (x0 : MND) (x1 : EDG) :
    val_main_v18 (F := Ideal) x0 x1
      = nbrSum scatter_S40000x128_S640000x1_S640000x128_1_0_0_1_wf gather_S40000x128_S640000x1_S640000x128_1_0_n_n_0_1_1128
          (val_main_v17 (F := Ideal) x1) (val_main_v14 (F := Ideal) x1) x0 := by
  have h16 : val_main_v16 (F := Ideal) = fun _ => Ideal.ofBits .f32 0x00000000#32 := by
    funext i
    rw [val_main_v16_apply]
    rfl
  unfold val_main_v18 val_main_v15 nbrSum
  rw [h16]
  rfl

/-- The scalar scatter is the count. -/
theorem v22_eq (x1 : EDG) :
    val_main_v22 (F := Ideal) x1 = count scatter_S40000_S640000x1_S640000_n_0_0_1_wf (val_main_v17 (F := Ideal) x1) := by
  have h20 : val_main_v20 (F := Ideal) = fun _ => Ideal.ofBits .f32 0x00000000#32 := by
    funext i
    rw [val_main_v20_apply]
    rfl
  have h19 : val_main_v19 (F := Ideal) = fun _ => Ideal.ofBits .f32 0x3F800000#32 := by
    funext i
    rw [val_main_v19_apply]
    rfl
  unfold val_main_v22 Cert.GraphConv.count
  rw [h20, h19]
  rfl

/-- The second layer's row scatter is the neighbour sum of the first layer's output, along the same two columns. -/
theorem v57_eq (x0 : MND) (x1 : EDG) (x2 : MDD) (x3 : VD) (x4 : MDD) (x5 : VD) :
    val_main_v57 (F := Ideal) x0 x1 x2 x3 x4 x5
      = nbrSum scatter_S40000x128_S640000x1_S640000x128_1_0_0_1_wf gather_S40000x128_S640000x1_S640000x128_1_0_n_n_0_1_1128
          (val_main_v17 (F := Ideal) x1) (val_main_v14 (F := Ideal) x1) (val_main_v38 (F := Ideal) x0 x1 x2 x3 x4 x5) := by
  have h55 : val_main_v55 (F := Ideal) = fun _ => Ideal.ofBits .f32 0x00000000#32 := by
    funext i
    rw [val_main_v55_apply]
    rfl
  unfold val_main_v57 val_main_v54 nbrSum
  rw [h55]
  rfl

/-! ## The entrywise stages at an entry -/

/-- The product with a transposed weight matrix, entry by entry. -/
theorem dotT_at (X : MND) (W : MDD) (p : Fin 40000) (q : Fin 128) :
    val_main_v5 (F := Ideal) X W (ix2 p q) = ∑ k : Fin 128, X (ix2 p k) * W (ix2 q k) := by
  rw [val_main_v5_apply]
  refine Finset.sum_congr rfl fun k _ => ?_
  rw [val_main_v4_apply]
  have e1 : lidx_main_v5 (ix2 p q) k = ix2 p k := by
    funext a
    match a with
    | ⟨0, _⟩ => rfl
    | ⟨1, _⟩ => rfl
  have e2 : idx_main_v4 (ridx_main_v5 (ix2 p q) k) = ix2 q k := by
    funext a
    match a with
    | ⟨0, _⟩ => rfl
    | ⟨1, _⟩ => rfl
  rw [e1, e2]

/-- A bias broadcast along the rows, entry by entry. -/
theorem bias_at (b : VD) (p : Fin 40000) (q : Fin 128) : val_main_v7 (F := Ideal) b (ix2 p q) = b (ix1 q) := by
  rw [val_main_v7_apply, val_main_v6_apply]
  congr 1
  funext a
  match a with
  | ⟨0, _⟩ => rfl

/-- The clamped count, broadcast along the columns, entry by entry. -/
theorem clamp_at (x1 : EDG) (p : Fin 40000) (k : Fin 128) :
    val_main_v26 (F := Ideal) x1 (ix2 p k)
      = max (val_main_v22 (F := Ideal) x1 (ix1 p)) (Ideal.ofBits .f32 0x3F800000#32) := by
  rw [val_main_v26_apply, val_main_v25_apply, val_main_v24_apply, val_main_v23_apply]
  have e : idx_main_v25 (idx_main_v26 (ix2 p k)) = ix1 p := by
    funext a
    match a with
    | ⟨0, _⟩ => rfl
  rw [e]
  rfl

/-- The indicator of a positive count, broadcast along the columns, entry by entry. -/
theorem mask_at (x1 : EDG) (p : Fin 40000) (q : Fin 128) :
    val_main_call0_v1 (F := Ideal) x1 (ix2 p q)
      = Ideal.cmp .ogt (val_main_v22 (F := Ideal) x1 (ix1 p)) (Ideal.ofBits .f32 0x00000000#32) := by
  rw [val_main_call0_v1_apply, val_main_v30_apply, val_main_v28_apply, val_main_v29_apply]
  have e : idx_main_v28 (idx_main_call0_v1 (ix2 p q)) = ix1 p := by
    funext a
    match a with
    | ⟨0, _⟩ => rfl
  rw [e]
  rfl

/-- The selection's zero branch, entry by entry. -/
theorem zeroW_at (i : S40000x128.Idx) : val_main_call0_v2 (F := Ideal) i = Ideal.ofBits .f32 0x00000000#32 := by
  rw [val_main_call0_v2_apply]
  rfl

/-- The rectifier's zero operand, entry by entry. -/
theorem zeroR_at (i : S40000x128.Idx) : val_main_call1_v0 (F := Ideal) i = Ideal.ofBits .f32 0x00000000#32 := by
  rw [val_main_call1_v0_apply]
  rfl

/-- One layer of the program over arbitrary node features x and neighbour sums nb, the counts being those of the edge
    array x1: the self product with its bias, plus the selection between the biased product of the quotient and zero,
    rectified. Both layers of the program are this term. -/
def refLayer (x nb : MND) (x1 : EDG) (Ws : MDD) (bs : VD) (Wn : MDD) (bn : VD) : MND :=
  maximumf (F := Ideal) (φ := .f32)
    (addf (F := Ideal) (φ := .f32) (val_main_v8 (F := Ideal) x Ws bs)
      (select (val_main_call0_v1 (F := Ideal) x1)
        (addf (F := Ideal) (φ := .f32)
          (val_main_v5 (F := Ideal) (Host.divf (F := Ideal) (φ := .f32) nb (val_main_v26 (F := Ideal) x1)) Wn)
          (val_main_v7 (F := Ideal) bn))
        (val_main_call0_v2 (F := Ideal))))
    (val_main_call1_v0 (F := Ideal))

/-- The self term: the product with the transposed self weights, plus the self bias. -/
theorem self_at (x : MND) (Ws : MDD) (bs : VD) (p : Fin 40000) (q : Fin 128) :
    val_main_v8 (F := Ideal) x Ws bs (ix2 p q) = (∑ k : Fin 128, x (ix2 p k) * Ws (ix2 q k)) + bs (ix1 q) := by
  rw [val_main_v8_apply, Ideal.addf_def, dotT_at, bias_at]

/-- The layer term is the layer with the quotient and the selection. -/
theorem refLayer_eq (x nb : MND) (x1 : EDG) (Ws : MDD) (bs : VD) (Wn : MDD) (bn : VD) :
    refLayer x nb x1 Ws bs Wn bn = layerR x nb (val_main_v22 (F := Ideal) x1) Ws bs Wn bn := by
  funext i
  obtain ⟨p, q, rfl⟩ : ∃ p q, i = ix2 p q := ⟨i 0, i 1, eq_ix2 i⟩
  have hd : ∀ k : Fin 128, Host.divf (F := Ideal) (φ := .f32) nb (val_main_v26 (F := Ideal) x1) (ix2 p k)
      = Ideal.div (nb (ix2 p k)) (max (val_main_v22 (F := Ideal) x1 (ix1 p)) (Ideal.ofBits .f32 0x3F800000#32)) := fun k =>
    (hostDivf_apply nb (val_main_v26 (F := Ideal) x1) (ix2 p k)).trans
      (congrArg (Ideal.div (nb (ix2 p k))) (clamp_at x1 p k))
  unfold refLayer
  rw [maximumf_apply, addf_apply, select_apply, addf_apply, self_at, mask_at, dotT_at, bias_at, zeroW_at, zeroR_at]
  simp only [hd]
  unfold layerR
  have h0 : (ix2 p q : SND.Idx) 0 = p := rfl
  have h1 : (ix2 p q : SND.Idx) 1 = q := rfl
  rw [h0, h1]

/-- The first layer's output is the layer term of the features and their neighbour sum. -/
theorem v38_eq (x0 : MND) (x1 : EDG) (x2 : MDD) (x3 : VD) (x4 : MDD) (x5 : VD) :
    val_main_v38 (F := Ideal) x0 x1 x2 x3 x4 x5 = refLayer x0 (val_main_v18 (F := Ideal) x0 x1) x1 x2 x3 x4 x5 := by
  have e32 : val_main_v32 (F := Ideal) x0 x1 x4
      = val_main_v5 (F := Ideal)
          (Host.divf (F := Ideal) (φ := .f32) (val_main_v18 (F := Ideal) x0 x1) (val_main_v26 (F := Ideal) x1)) x4 := rfl
  have e34 : val_main_v34 (F := Ideal) x5 = val_main_v7 (F := Ideal) x5 := rfl
  unfold val_main_v38 val_main_v37 val_main_v36 val_main_v35 refLayer
  rw [e32, e34]

/-- The program's result is the layer term of the first layer's output and its neighbour sum. -/
theorem v77_eq (x0 : MND) (x1 : EDG) (x2 : MDD) (x3 : VD) (x4 : MDD) (x5 : VD) (x6 : MDD) (x7 : VD) (x8 : MDD) (x9 : VD) :
    val_main_v77 (F := Ideal) x0 x1 x2 x3 x4 x5 x6 x7 x8 x9
      = refLayer (val_main_v38 (F := Ideal) x0 x1 x2 x3 x4 x5) (val_main_v57 (F := Ideal) x0 x1 x2 x3 x4 x5) x1 x6 x7 x8 x9 := by
  have e47 : val_main_v47 (F := Ideal) x0 x1 x2 x3 x4 x5 x6 x7
      = val_main_v8 (F := Ideal) (val_main_v38 (F := Ideal) x0 x1 x2 x3 x4 x5) x6 x7 := rfl
  have e71 : val_main_v71 (F := Ideal) x0 x1 x2 x3 x4 x5 x8
      = val_main_v5 (F := Ideal)
          (Host.divf (F := Ideal) (φ := .f32) (val_main_v57 (F := Ideal) x0 x1 x2 x3 x4 x5) (val_main_v26 (F := Ideal) x1))
          x8 := rfl
  have e73 : val_main_v73 (F := Ideal) x9 = val_main_v7 (F := Ideal) x9 := rfl
  have ec1 : val_main_call2_v1 (F := Ideal) x1 = val_main_call0_v1 (F := Ideal) x1 := rfl
  have ec2 : val_main_call2_v2 (F := Ideal) = val_main_call0_v2 (F := Ideal) := rfl
  have ec3 : val_main_call3_v0 (F := Ideal) = val_main_call1_v0 (F := Ideal) := rfl
  unfold val_main_v77 val_main_v76 val_main_v75 val_main_v74 refLayer
  rw [e47, e71, e73, ec1, ec2, ec3]

/-! ## The result -/

/-- The reference program's result is the two-layer network in the arrangement with the quotient and the selection, of
    the destination column, the wrapped source column, the features and the eight weights. -/
theorem result_eq (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal)) :
    Cert.ReferenceIdeal.Read.val_main_v77 (F := Ideal) x0 x1 x2 x3 x4 x5 x6 x7 x8 x9
      = Cert.GraphConv.netR scatter_S40000_S640000x1_S640000_n_0_0_1_wf scatter_S40000x128_S640000x1_S640000x128_1_0_0_1_wf
          gather_S40000x128_S640000x1_S640000x128_1_0_n_n_0_1_1128
          (Cert.ReferenceIdeal.Read.val_main_v17 (F := Ideal) x1) (Cert.ReferenceIdeal.Read.val_main_v14 (F := Ideal) x1)
          x0 x2 x3 x4 x5 x6 x7 x8 x9 := by
  have h1 : val_main_v38 (F := Ideal) x0 x1 x2 x3 x4 x5
      = layerR x0
          (nbrSum scatter_S40000x128_S640000x1_S640000x128_1_0_0_1_wf gather_S40000x128_S640000x1_S640000x128_1_0_n_n_0_1_1128
            (val_main_v17 (F := Ideal) x1) (val_main_v14 (F := Ideal) x1) x0)
          (count scatter_S40000_S640000x1_S640000_n_0_0_1_wf (val_main_v17 (F := Ideal) x1)) x2 x3 x4 x5 := by
    rw [v38_eq, refLayer_eq, v18_eq, v22_eq]
  unfold netR
  rw [v77_eq, refLayer_eq, v57_eq, v22_eq, h1]

end Cert.ReferenceIdeal.RefValue

end
-- ==== Proof.lean ====
/- The proof of `Cert.Claim`: a two-layer mean-aggregating graph convolution (40000 nodes, 128 features, 640000 edges)
   whose dense part — the two weight products, the masked neighbour bias and the rectification — runs as a tiled kernel,
   launched once per layer between host gathers and scatters, against a reference that computes every step on the host.
   On the extended reals the two differ only in how the neighbour term is arranged: the kernel multiplies the neighbour
   sum by the reciprocal of the clamped in-degree and adds the bias times the indicator of a positive in-degree, the
   reference divides and selects. The in-degree is a natural number, and where it is zero the neighbour sum is an empty
   sum, so the two arrangements are one function (Proof/Spec.lean); no input needs to be finite for that.
   The modules: Proof/Spec.lean (the two arrangements and the law), Proof/LayerBridge.lean (a layer as the kernel's
   program computes it is the first arrangement), Proof/RegionValue.lean (what a launch of the dense kernel leaves in its
   output array), Proof/KernelRun.lean, Proof/HostFirst.lean and Proof/HostValue.lean (the kernel program's run and its
   result read back through its host stretches and launches), Proof/RefValue.lean (the reference's result is the second
   arrangement), Proof/Claims.lean (the claims from those). The kernel is its own idealization (the ideal pass rewrote
   nothing), and every frame is the program's run with the result dropped. -/
import proofs.«127119_j81252191306417_2_alg».proof.Defs
import proofs.«127119_j81252191306417_2_alg».proof.Proof.Gen.Kernel
import proofs.«127119_j81252191306417_2_alg».proof.Proof.Gen.Kernel.Skeleton
import proofs.«127119_j81252191306417_2_alg».proof.Proof.Gen.Kernel.Launch
import proofs.«127119_j81252191306417_2_alg».proof.Proof.Gen.Kernel.Points
import proofs.«127119_j81252191306417_2_alg».proof.Proof.Gen.Kernel.Frame
import proofs.«127119_j81252191306417_2_alg».proof.Proof.Gen.KernelIdeal
import proofs.«127119_j81252191306417_2_alg».proof.Proof.Gen.KernelIdeal.Skeleton
import proofs.«127119_j81252191306417_2_alg».proof.Proof.Gen.KernelIdeal.Launch
import proofs.«127119_j81252191306417_2_alg».proof.Proof.Gen.KernelIdeal.Points
import proofs.«127119_j81252191306417_2_alg».proof.Proof.Gen.KernelIdeal.Frame
import proofs.«127119_j81252191306417_2_alg».proof.Proof.Gen.ReferenceIdeal
import proofs.«127119_j81252191306417_2_alg».proof.Proof.Gen.Pre_finite_inputs
import proofs.«127119_j81252191306417_2_alg».proof.Proof.Claims
import proofs.«127119_j81252191306417_2_alg».proof.Proof.RegionValue
import proofs.«127119_j81252191306417_2_alg».proof.Proof.RefValue
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Claims.frame_ri,
    trivial,
    Claims.algebraic_of Cert.KernelIdeal.RegionValue.final0 Cert.KernelIdeal.RegionValue.final1
      Cert.ReferenceIdeal.RefValue.result_eq⟩

end Cert.Proof

end
